-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8x4096x4096 : Shape := ⟨3, ![8, 4096, 4096]⟩
abbrev S8x2048x4096 : Shape := ⟨3, ![8, 2048, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn {F : FTy → Type} [FloatOps F] (main_arg0 : FVec F S8192x4096 .f32) (main_arg1 : IVec S8192 32) (main_arg2 : FVec F S8x4096x4096 .f32) (main_arg3 : FVec F S8x2048x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8x4096x4096 .f32 := Host.absf main_arg2
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  main_v13
-- ==== Kernel.lean ====
abbrev S8192x4096 : Shape := ⟨2, ![8192, 4096]⟩
abbrev S8192 : Shape := ⟨1, ![8192]⟩
abbrev S8x4096x4096 : Shape := ⟨3, ![8, 4096, 4096]⟩
abbrev S8x2048x4096 : Shape := ⟨3, ![8, 2048, 4096]⟩
abbrev S8x4096x2048 : Shape := ⟨3, ![8, 4096, 2048]⟩
abbrev S_ : Shape := ⟨0, ![]⟩
abbrev S1x8192x1 : Shape := ⟨3, ![1, 8192, 1]⟩
abbrev S8 : Shape := ⟨1, ![8]⟩
abbrev S8x1x1 : Shape := ⟨3, ![8, 1, 1]⟩
abbrev S8x8192x1 : Shape := ⟨3, ![8, 8192, 1]⟩
abbrev S512x4096 : Shape := ⟨2, ![512, 4096]⟩
abbrev S1x4096x256 : Shape := ⟨3, ![1, 4096, 256]⟩
abbrev S1x256x4096 : Shape := ⟨3, ![1, 256, 4096]⟩
abbrev S1x512x1 : Shape := ⟨3, ![1, 512, 1]⟩
abbrev S4096x256 : Shape := ⟨2, ![4096, 256]⟩
abbrev S256x4096 : Shape := ⟨2, ![256, 4096]⟩
abbrev S512x256 : Shape := ⟨2, ![512, 256]⟩
abbrev S512x1 : Shape := ⟨2, ![512, 1]⟩

abbrev nBuf : Space → Nat
  | .hbm => 47
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8x4096x4096, .f32⟩
  | .hbm, ⟨3, _⟩ => ⟨S8x2048x4096, .f32⟩
  | .hbm, ⟨4, _⟩ => ⟨S8192x4096, .bf16⟩
  | .hbm, ⟨5, _⟩ => ⟨S8x4096x4096, .bf16⟩
  | .hbm, ⟨6, _⟩ => ⟨S8x4096x2048, .bf16⟩
  | .hbm, ⟨7, _⟩ => ⟨S8x4096x2048, .bf16⟩
  | .hbm, ⟨8, _⟩ => ⟨S8x2048x4096, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S_, .i1⟩
  | .hbm, ⟨33, _⟩ => ⟨S8192, .i1⟩
  | .hbm, ⟨34, _⟩ => ⟨S8192, .i1⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S1x8192x1, .i32⟩
  | .hbm, ⟨40, _⟩ => ⟨S8, .i32⟩
  | .hbm, ⟨41, _⟩ => ⟨S8x1x1, .i32⟩
  | .hbm, ⟨42, _⟩ => ⟨S8x8192x1, .i32⟩
  | .hbm, ⟨43, _⟩ => ⟨S8x8192x1, .i32⟩
  | .hbm, ⟨44, _⟩ => ⟨S8x8192x1, .i1⟩
  | .hbm, ⟨45, _⟩ => ⟨S8x8192x1, .f32⟩
  | .hbm, ⟨46, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x512x1, .f32⟩
  | .local _ .vmem, ⟨9, _⟩ => ⟨S1x512x1, .f32⟩
  | .local _ .vmem, ⟨10, _⟩ => ⟨S512x4096, .f32⟩
  | .local _ .vmem, ⟨11, _⟩ => ⟨S512x4096, .f32⟩
  | .local _ .vmem, ⟨12, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c : Ref sig .tc := ⟨.hbm, 9, rfl⟩
abbrev main_call0_c_0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_call1_v0 : Ref sig .tc := ⟨.hbm, 18, rfl⟩
abbrev main_call0_call1_c : Ref sig .tc := ⟨.hbm, 19, rfl⟩
abbrev main_call0_call1_v1 : Ref sig .tc := ⟨.hbm, 20, rfl⟩
abbrev main_call0_call1_c_0 : Ref sig .tc := ⟨.hbm, 21, rfl⟩
abbrev main_call0_call1_v2 : Ref sig .tc := ⟨.hbm, 22, rfl⟩
abbrev main_call0_call1_v3 : Ref sig .tc := ⟨.hbm, 23, rfl⟩
abbrev main_call0_call1_v4 : Ref sig .tc := ⟨.hbm, 24, rfl⟩
abbrev main_call0_call1_c_1 : Ref sig .tc := ⟨.hbm, 25, rfl⟩
abbrev main_call0_call1_v5 : Ref sig .tc := ⟨.hbm, 26, rfl⟩
abbrev main_call0_call1_v6 : Ref sig .tc := ⟨.hbm, 27, rfl⟩
abbrev main_call0_call1_c_2 : Ref sig .tc := ⟨.hbm, 28, rfl⟩
abbrev main_call0_call1_v7 : Ref sig .tc := ⟨.hbm, 29, rfl⟩
abbrev main_call0_call1_v8 : Ref sig .tc := ⟨.hbm, 30, rfl⟩
abbrev main_call0_call1_c_3 : Ref sig .tc := ⟨.hbm, 31, rfl⟩
abbrev main_call0_call1_v9 : Ref sig .tc := ⟨.hbm, 32, rfl⟩
abbrev main_call0_call1_v10 : Ref sig .tc := ⟨.hbm, 33, rfl⟩
abbrev main_call0_call1_v11 : Ref sig .tc := ⟨.hbm, 34, rfl⟩
abbrev main_call0_call1_v12 : Ref sig .tc := ⟨.hbm, 35, rfl⟩
abbrev main_call0_call1_v13 : Ref sig .tc := ⟨.hbm, 36, rfl⟩
abbrev main_call0_call1_v14 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 8], ![false, false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let arg2 : BitVec 32 := BitVec.ofNat 32 (i 2).val
  let c7_i32_21 : BitVec 32 := 7#32
  let v30 : BitVec 1 := Scalar.cmpi .eq arg2 c7_i32_21
  let v31 : BitVec 1 := Scalar.andi v29 v30
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  slices_S8x4096x4096_S8x4096x2048_0_0_0 : S8x4096x4096.Slices ![0, 0, 0] S8x4096x2048
  slices_S8x4096x4096_S8x4096x2048_0_0_2048 : S8x4096x4096.Slices ![0, 0, 2048] S8x4096x2048
  bcast_S_S8192 : S_.BroadcastsInDim S8192 (![] : Fin 0 → Fin S8192.rank)
  bcast_S8192_S1x8192x1_1 : S8192.BroadcastsInDim S1x8192x1 (![1] : Fin 1 → Fin S1x8192x1.rank)
  bcast_S8_S8x1x1_0 : S8.BroadcastsInDim S8x1x1 (![0] : Fin 1 → Fin S8x1x1.rank)
  bcast_S1x8192x1_S8x8192x1_0_1_2 : S1x8192x1.BroadcastsInDim S8x8192x1 (![0, 1, 2] : Fin 3 → Fin S8x8192x1.rank)
  bcast_S8x1x1_S8x8192x1_0_1_2 : S8x1x1.BroadcastsInDim S8x8192x1 (![0, 1, 2] : Fin 3 → Fin S8x8192x1.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x4096 : S512x1.Broadcasts S512x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x2048.size a
  hwx0_1 : ∀ i : grid0.Coords, EltTy.bits .bf16 = 32 ∨ (Rect.block (s := S8x4096x2048) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x2048.size a
  hwx0_2 : ∀ i : grid0.Coords, EltTy.bits .bf16 = 32 ∨ (Rect.block (s := S8x4096x2048) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .bf16 = 32 ∨ (Rect.block (s := S8x2048x4096) S1x256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x8192x1.size a
  hwx0_4 : ∀ i : grid0.Coords, EltTy.bits .f32 = 32 ∨ (Rect.block (s := S8x8192x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_call0_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8x4096x4096 : Shape := ⟨3, ![8, 4096, 4096]⟩
abbrev S8x2048x4096 : Shape := ⟨3, ![8, 2048, 4096]⟩
abbrev S_ : Shape := ⟨0, ![]⟩
abbrev S8192x1 : Shape := ⟨2, ![8192, 1]⟩
abbrev S1x4096x4096 : Shape := ⟨3, ![1, 4096, 4096]⟩
abbrev S4096x4096 : Shape := ⟨2, ![4096, 4096]⟩
abbrev S8192x2048 : Shape := ⟨2, ![8192, 2048]⟩
abbrev S1x2048x4096 : Shape := ⟨3, ![1, 2048, 4096]⟩
abbrev S2048x4096 : Shape := ⟨2, ![2048, 4096]⟩

abbrev nBuf : Space → Nat
  | .hbm => 260
  | .vmem => 0
  | .smem => 0
  | _ => 0

abbrev hbmTy0_0 (i : Nat) : BufTy := match i % 128 with
  | 0 => ⟨S8192x4096, .f32⟩
  | 1 => ⟨S8192, .i32⟩
  | 2 => ⟨S8x4096x4096, .f32⟩
  | 3 => ⟨S8x2048x4096, .f32⟩
  | 4 => ⟨S_, .i32⟩
  | 5 => ⟨S_, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i1⟩
  | 26 => ⟨S_, .i32⟩
  | 27 => ⟨S_, .i1⟩
  | 28 => ⟨S8192, .i1⟩
  | 29 => ⟨S8192, .i1⟩
  | 30 => ⟨S8192, .i1⟩
  | 31 => ⟨S8192, .i32⟩
  | 32 => ⟨S8192, .i32⟩
  | 33 => ⟨S8192, .i32⟩
  | 34 => ⟨S_, .f32⟩
  | 35 => ⟨S8192x4096, .f32⟩
  | 36 => ⟨S_, .i32⟩
  | 37 => ⟨S8192, .i32⟩
  | 38 => ⟨S8192, .i1⟩
  | 39 => ⟨S8192x1, .i1⟩
  | 40 => ⟨S8192x1, .f32⟩
  | 41 => ⟨S8192x4096, .f32⟩
  | 42 => ⟨S8192x4096, .f32⟩
  | 43 => ⟨S1x4096x4096, .f32⟩
  | 44 => ⟨S4096x4096, .f32⟩
  | 45 => ⟨S8192x4096, .f32⟩
  | 46 => ⟨S8192x2048, .f32⟩
  | 47 => ⟨S8192x2048, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S8192x2048, .f32⟩
  | 57 => ⟨S8192x2048, .f32⟩
  | 58 => ⟨S1x2048x4096, .f32⟩
  | 59 => ⟨S2048x4096, .f32⟩
  | 60 => ⟨S8192x4096, .f32⟩
  | 61 => ⟨S8192x4096, .f32⟩
  | 62 => ⟨S8192x4096, .f32⟩
  | 63 => ⟨S8192x4096, .f32⟩
  | 64 => ⟨S_, .i32⟩
  | 65 => ⟨S8192, .i32⟩
  | 66 => ⟨S8192, .i1⟩
  | 67 => ⟨S8192x1, .i1⟩
  | 68 => ⟨S8192x1, .f32⟩
  | 69 => ⟨S8192x4096, .f32⟩
  | 70 => ⟨S8192x4096, .f32⟩
  | 71 => ⟨S1x4096x4096, .f32⟩
  | 72 => ⟨S4096x4096, .f32⟩
  | 73 => ⟨S8192x4096, .f32⟩
  | 74 => ⟨S8192x2048, .f32⟩
  | 75 => ⟨S8192x2048, .f32⟩
  | 76 => ⟨S8192x2048, .f32⟩
  | 77 => ⟨S8192x2048, .f32⟩
  | 78 => ⟨S_, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S8192x2048, .f32⟩
  | 85 => ⟨S8192x2048, .f32⟩
  | 86 => ⟨S1x2048x4096, .f32⟩
  | 87 => ⟨S2048x4096, .f32⟩
  | 88 => ⟨S8192x4096, .f32⟩
  | 89 => ⟨S8192x4096, .f32⟩
  | 90 => ⟨S8192x4096, .f32⟩
  | 91 => ⟨S8192x4096, .f32⟩
  | 92 => ⟨S_, .i32⟩
  | 93 => ⟨S8192, .i32⟩
  | 94 => ⟨S8192, .i1⟩
  | 95 => ⟨S8192x1, .i1⟩
  | 96 => ⟨S8192x1, .f32⟩
  | 97 => ⟨S8192x4096, .f32⟩
  | 98 => ⟨S8192x4096, .f32⟩
  | 99 => ⟨S1x4096x4096, .f32⟩
  | 100 => ⟨S4096x4096, .f32⟩
  | 101 => ⟨S8192x4096, .f32⟩
  | 102 => ⟨S8192x2048, .f32⟩
  | 103 => ⟨S8192x2048, .f32⟩
  | 104 => ⟨S8192x2048, .f32⟩
  | 105 => ⟨S8192x2048, .f32⟩
  | 106 => ⟨S_, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S8192x2048, .f32⟩
  | 113 => ⟨S8192x2048, .f32⟩
  | 114 => ⟨S1x2048x4096, .f32⟩
  | 115 => ⟨S2048x4096, .f32⟩
  | 116 => ⟨S8192x4096, .f32⟩
  | 117 => ⟨S8192x4096, .f32⟩
  | 118 => ⟨S8192x4096, .f32⟩
  | 119 => ⟨S8192x4096, .f32⟩
  | 120 => ⟨S_, .i32⟩
  | 121 => ⟨S8192, .i32⟩
  | 122 => ⟨S8192, .i1⟩
  | 123 => ⟨S8192x1, .i1⟩
  | 124 => ⟨S8192x1, .f32⟩
  | 125 => ⟨S8192x4096, .f32⟩
  | 126 => ⟨S8192x4096, .f32⟩
  | 127 => ⟨S1x4096x4096, .f32⟩
  | _ => ⟨S8192x4096, .f32⟩

abbrev hbmTy0_1 (i : Nat) : BufTy := match i % 128 with
  | 0 => ⟨S4096x4096, .f32⟩
  | 1 => ⟨S8192x4096, .f32⟩
  | 2 => ⟨S8192x2048, .f32⟩
  | 3 => ⟨S8192x2048, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S_, .f32⟩
  | 10 => ⟨S8192x2048, .f32⟩
  | 11 => ⟨S8192x2048, .f32⟩
  | 12 => ⟨S8192x2048, .f32⟩
  | 13 => ⟨S8192x2048, .f32⟩
  | 14 => ⟨S1x2048x4096, .f32⟩
  | 15 => ⟨S2048x4096, .f32⟩
  | 16 => ⟨S8192x4096, .f32⟩
  | 17 => ⟨S8192x4096, .f32⟩
  | 18 => ⟨S8192x4096, .f32⟩
  | 19 => ⟨S8192x4096, .f32⟩
  | 20 => ⟨S_, .i32⟩
  | 21 => ⟨S8192, .i32⟩
  | 22 => ⟨S8192, .i1⟩
  | 23 => ⟨S8192x1, .i1⟩
  | 24 => ⟨S8192x1, .f32⟩
  | 25 => ⟨S8192x4096, .f32⟩
  | 26 => ⟨S8192x4096, .f32⟩
  | 27 => ⟨S1x4096x4096, .f32⟩
  | 28 => ⟨S4096x4096, .f32⟩
  | 29 => ⟨S8192x4096, .f32⟩
  | 30 => ⟨S8192x2048, .f32⟩
  | 31 => ⟨S8192x2048, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S8192x2048, .f32⟩
  | 41 => ⟨S8192x2048, .f32⟩
  | 42 => ⟨S1x2048x4096, .f32⟩
  | 43 => ⟨S2048x4096, .f32⟩
  | 44 => ⟨S8192x4096, .f32⟩
  | 45 => ⟨S8192x4096, .f32⟩
  | 46 => ⟨S8192x4096, .f32⟩
  | 47 => ⟨S8192x4096, .f32⟩
  | 48 => ⟨S_, .i32⟩
  | 49 => ⟨S8192, .i32⟩
  | 50 => ⟨S8192, .i1⟩
  | 51 => ⟨S8192x1, .i1⟩
  | 52 => ⟨S8192x1, .f32⟩
  | 53 => ⟨S8192x4096, .f32⟩
  | 54 => ⟨S8192x4096, .f32⟩
  | 55 => ⟨S1x4096x4096, .f32⟩
  | 56 => ⟨S4096x4096, .f32⟩
  | 57 => ⟨S8192x4096, .f32⟩
  | 58 => ⟨S8192x2048, .f32⟩
  | 59 => ⟨S8192x2048, .f32⟩
  | 60 => ⟨S8192x2048, .f32⟩
  | 61 => ⟨S8192x2048, .f32⟩
  | 62 => ⟨S_, .f32⟩
  | 63 => ⟨S8192x2048, .f32⟩
  | 64 => ⟨S8192x2048, .f32⟩
  | 65 => ⟨S_, .f32⟩
  | 66 => ⟨S8192x2048, .f32⟩
  | 67 => ⟨S8192x2048, .f32⟩
  | 68 => ⟨S8192x2048, .f32⟩
  | 69 => ⟨S8192x2048, .f32⟩
  | 70 => ⟨S1x2048x4096, .f32⟩
  | 71 => ⟨S2048x4096, .f32⟩
  | 72 => ⟨S8192x4096, .f32⟩
  | 73 => ⟨S8192x4096, .f32⟩
  | 74 => ⟨S8192x4096, .f32⟩
  | 75 => ⟨S8192x4096, .f32⟩
  | 76 => ⟨S_, .i32⟩
  | 77 => ⟨S8192, .i32⟩
  | 78 => ⟨S8192, .i1⟩
  | 79 => ⟨S8192x1, .i1⟩
  | 80 => ⟨S8192x1, .f32⟩
  | 81 => ⟨S8192x4096, .f32⟩
  | 82 => ⟨S8192x4096, .f32⟩
  | 83 => ⟨S1x4096x4096, .f32⟩
  | 84 => ⟨S4096x4096, .f32⟩
  | 85 => ⟨S8192x4096, .f32⟩
  | 86 => ⟨S8192x2048, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S_, .f32⟩
  | 94 => ⟨S8192x2048, .f32⟩
  | 95 => ⟨S8192x2048, .f32⟩
  | 96 => ⟨S8192x2048, .f32⟩
  | 97 => ⟨S8192x2048, .f32⟩
  | 98 => ⟨S1x2048x4096, .f32⟩
  | 99 => ⟨S2048x4096, .f32⟩
  | 100 => ⟨S8192x4096, .f32⟩
  | 101 => ⟨S8192x4096, .f32⟩
  | 102 => ⟨S8192x4096, .f32⟩
  | 103 => ⟨S8192x4096, .f32⟩
  | 104 => ⟨S_, .i32⟩
  | 105 => ⟨S8192, .i32⟩
  | 106 => ⟨S8192, .i1⟩
  | 107 => ⟨S8192x1, .i1⟩
  | 108 => ⟨S8192x1, .f32⟩
  | 109 => ⟨S8192x4096, .f32⟩
  | 110 => ⟨S8192x4096, .f32⟩
  | 111 => ⟨S1x4096x4096, .f32⟩
  | 112 => ⟨S4096x4096, .f32⟩
  | 113 => ⟨S8192x4096, .f32⟩
  | 114 => ⟨S8192x2048, .f32⟩
  | 115 => ⟨S8192x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S_, .f32⟩
  | 122 => ⟨S8192x2048, .f32⟩
  | 123 => ⟨S8192x2048, .f32⟩
  | 124 => ⟨S8192x2048, .f32⟩
  | 125 => ⟨S8192x2048, .f32⟩
  | 126 => ⟨S1x2048x4096, .f32⟩
  | 127 => ⟨S2048x4096, .f32⟩
  | _ => ⟨S8192x4096, .f32⟩

abbrev hbmTy0_2 (i : Nat) : BufTy := match i % 128 with
  | 0 => ⟨S8192x4096, .f32⟩
  | 1 => ⟨S8192x4096, .f32⟩
  | 2 => ⟨S8192x4096, .f32⟩
  | 3 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_call1_v0 : Ref sig .tc := ⟨.hbm, 13, rfl⟩
abbrev main_call1_c : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_v5 : Ref sig .tc := ⟨.hbm, 21, rfl⟩
abbrev main_call1_v6 : Ref sig .tc := ⟨.hbm, 22, rfl⟩
abbrev main_call1_c_2 : Ref sig .tc := ⟨.hbm, 23, rfl⟩
abbrev main_call1_v7 : Ref sig .tc := ⟨.hbm, 24, rfl⟩
abbrev main_call1_v8 : Ref sig .tc := ⟨.hbm, 25, rfl⟩
abbrev main_call1_c_3 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_c_2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_4 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_c_5 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_c_6 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_c_7 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_call7_v0 : Ref sig .tc := ⟨.hbm, 188, rfl⟩
abbrev main_call7_v1 : Ref sig .tc := ⟨.hbm, 189, rfl⟩
abbrev main_call7_cst : Ref sig .tc := ⟨.hbm, 190, rfl⟩
abbrev main_call7_v2 : Ref sig .tc := ⟨.hbm, 191, rfl⟩
abbrev main_call7_v3 : Ref sig .tc := ⟨.hbm, 192, rfl⟩
abbrev main_call7_cst_0 : Ref sig .tc := ⟨.hbm, 193, rfl⟩
abbrev main_call7_v4 : Ref sig .tc := ⟨.hbm, 194, rfl⟩
abbrev main_call7_v5 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_c_8 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_call8_v0 : Ref sig .tc := ⟨.hbm, 216, rfl⟩
abbrev main_call8_v1 : Ref sig .tc := ⟨.hbm, 217, rfl⟩
abbrev main_call8_cst : Ref sig .tc := ⟨.hbm, 218, rfl⟩
abbrev main_call8_v2 : Ref sig .tc := ⟨.hbm, 219, rfl⟩
abbrev main_call8_v3 : Ref sig .tc := ⟨.hbm, 220, rfl⟩
abbrev main_call8_cst_0 : Ref sig .tc := ⟨.hbm, 221, rfl⟩
abbrev main_call8_v4 : Ref sig .tc := ⟨.hbm, 222, rfl⟩
abbrev main_call8_v5 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_c_9 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_call9_v0 : Ref sig .tc := ⟨.hbm, 244, rfl⟩
abbrev main_call9_v1 : Ref sig .tc := ⟨.hbm, 245, rfl⟩
abbrev main_call9_cst : Ref sig .tc := ⟨.hbm, 246, rfl⟩
abbrev main_call9_v2 : Ref sig .tc := ⟨.hbm, 247, rfl⟩
abbrev main_call9_v3 : Ref sig .tc := ⟨.hbm, 248, rfl⟩
abbrev main_call9_cst_0 : Ref sig .tc := ⟨.hbm, 249, rfl⟩
abbrev main_call9_v4 : Ref sig .tc := ⟨.hbm, 250, rfl⟩
abbrev main_call9_v5 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  slices_S8x4096x4096_S1x4096x4096_0_0_0 : S8x4096x4096.Slices ![0, 0, 0] S1x4096x4096
  shapeCasts_S1x4096x4096_S4096x4096 : S1x4096x4096.ShapeCasts S4096x4096
  slices_S8192x4096_S8192x2048_0_0 : S8192x4096.Slices ![0, 0] S8192x2048
  slices_S8192x4096_S8192x2048_0_2048 : S8192x4096.Slices ![0, 2048] S8192x2048
  bcast_S_S8192x2048 : S_.BroadcastsInDim S8192x2048 (![] : Fin 0 → Fin S8192x2048.rank)
  slices_S8x2048x4096_S1x2048x4096_0_0_0 : S8x2048x4096.Slices ![0, 0, 0] S1x2048x4096
  shapeCasts_S1x2048x4096_S2048x4096 : S1x2048x4096.ShapeCasts S2048x4096
  slices_S8x4096x4096_S1x4096x4096_1_0_0 : S8x4096x4096.Slices ![1, 0, 0] S1x4096x4096
  slices_S8x2048x4096_S1x2048x4096_1_0_0 : S8x2048x4096.Slices ![1, 0, 0] S1x2048x4096
  slices_S8x4096x4096_S1x4096x4096_2_0_0 : S8x4096x4096.Slices ![2, 0, 0] S1x4096x4096
  slices_S8x2048x4096_S1x2048x4096_2_0_0 : S8x2048x4096.Slices ![2, 0, 0] S1x2048x4096
  slices_S8x4096x4096_S1x4096x4096_3_0_0 : S8x4096x4096.Slices ![3, 0, 0] S1x4096x4096
  slices_S8x2048x4096_S1x2048x4096_3_0_0 : S8x2048x4096.Slices ![3, 0, 0] S1x2048x4096
  slices_S8x4096x4096_S1x4096x4096_4_0_0 : S8x4096x4096.Slices ![4, 0, 0] S1x4096x4096
  slices_S8x2048x4096_S1x2048x4096_4_0_0 : S8x2048x4096.Slices ![4, 0, 0] S1x2048x4096
  slices_S8x4096x4096_S1x4096x4096_5_0_0 : S8x4096x4096.Slices ![5, 0, 0] S1x4096x4096
  slices_S8x2048x4096_S1x2048x4096_5_0_0 : S8x2048x4096.Slices ![5, 0, 0] S1x2048x4096
  slices_S8x4096x4096_S1x4096x4096_6_0_0 : S8x4096x4096.Slices ![6, 0, 0] S1x4096x4096
  slices_S8x2048x4096_S1x2048x4096_6_0_0 : S8x2048x4096.Slices ![6, 0, 0] S1x2048x4096
  slices_S8x4096x4096_S1x4096x4096_7_0_0 : S8x4096x4096.Slices ![7, 0, 0] S1x4096x4096
  slices_S8x2048x4096_S1x2048x4096_7_0_0 : S8x2048x4096.Slices ![7, 0, 0] S1x2048x4096
  dot_S8192x4096_S4096x4096_S8192x4096_1_0_0_1_n_n_wf : DotDims.WF S8192x4096 S4096x4096 S8192x4096 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KPieces.lean ====
/-
  What one grid point leaves behind, as values.

  The body keeps a [512, 4096] running sum in a scratch buffer that lives across grid points. At a point it
  (at the first point of a token block only) stores the zero block, then loads its five input blocks and the running
  sum, and stores back  sum + contribution  — one whole-buffer store whose value is the body's arithmetic
  `k0_pay2` of the loaded blocks. At the last point of a token block it also copies the scratch to the output block.
  The frame's run found these stores as lists of pieces; read back, each list is that one value:
    first point   : the scratch ends at  k0_pay2 (inputs) (zero block)
    middle points : the scratch ends at  k0_pay2 (inputs) (what the point before left)
    last point    : the same, and the output block holds the same value.
-/
import proofs.«165303_j35373350650584_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: over the running sum `xs0` the scratch ends at the body's value of the input blocks and `xs0`
    (its one covering store; every load reads a whole buffer). -/
theorem scratch_B (c : Dev nD) (i : grid0.Coords) (arg3 : Memref sig .tc .vmem S512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x1 .f32) (harg7 : arg7.IsWhole) (arg8 : Memref sig .tc .vmem S512x4096 .f32) (harg8 : arg8.IsWhole) (arg9 : Memref sig .tc .vmem S512x4096 .f32) (harg9 : arg9.IsWhole) (hc0 : ¬cond0_0 i) (hc1 : ¬cond0_1 i) (x0 : Vec F S512x4096 .bf16) (x1 : Vec F S1x4096x256 .bf16) (x2 : Vec F S1x4096x256 .bf16) (x3 : Vec F S1x256x4096 .bf16) (x4 : Vec F S1x512x1 .f32) (xs0 : Vec F S512x4096 .f32) :
    sout0_B_0 c i arg3 harg3 arg4 harg4 arg5 harg5 arg6 harg6 arg7 harg7 arg8 harg8 arg9 harg9 hc0 hc1 x0 x1 x2 x3 x4 xs0 = k0_pay2 x0 x1 x2 x3 x4 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz2]
  simp only [View.readAt_eq_ld, harg3.read_unread, harg4.read_unread, harg5.read_unread, harg6.read_unread, harg7.read_unread, harg9.read_unread, View.ld_unit_zero (S := S512x4096) hz2, View.ld_unit_zero (S := S1x4096x256) hz3, View.ld_unit_zero (S := S1x256x4096) hz3, View.ld_unit_zero (S := S1x512x1) hz3]

/-- The first point of a token block: the zero block is stored, read back, and the scratch ends at the body's value of
    the input blocks and the zero block. -/
theorem scratch_A (c : Dev nD) (i : grid0.Coords) (arg3 : Memref sig .tc .vmem S512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x1 .f32) (harg7 : arg7.IsWhole) (arg8 : Memref sig .tc .vmem S512x4096 .f32) (harg8 : arg8.IsWhole) (arg9 : Memref sig .tc .vmem S512x4096 .f32) (harg9 : arg9.IsWhole) (hc0 : cond0_0 i) (hc1 : ¬cond0_1 i) (x0 : Vec F S512x4096 .bf16) (x1 : Vec F S1x4096x256 .bf16) (x2 : Vec F S1x4096x256 .bf16) (x3 : Vec F S1x256x4096 .bf16) (x4 : Vec F S1x512x1 .f32) :
    sout0_A_0 c i arg3 harg3 arg4 harg4 arg5 harg5 arg6 harg6 arg7 harg7 arg8 harg8 arg9 harg9 hc0 hc1 x0 x1 x2 x3 x4 = k0_pay2 x0 x1 x2 x3 x4 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x4096) hz2, View.readCov_unit_zero (S := S512x4096) _ hz2]
  simp only [View.readAt_eq_ld, harg3.read_unread, harg4.read_unread, harg5.read_unread, harg6.read_unread, harg7.read_unread, harg9.read_unread, View.ld_unit_zero (S := S512x4096) hz2, View.ld_unit_zero (S := S1x4096x256) hz3, View.ld_unit_zero (S := S1x256x4096) hz3, View.ld_unit_zero (S := S1x512x1) hz3]

/-- The last point of a token block: the scratch ends as at a middle point … -/
theorem scratch_C (c : Dev nD) (i : grid0.Coords) (arg3 : Memref sig .tc .vmem S512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x1 .f32) (harg7 : arg7.IsWhole) (arg8 : Memref sig .tc .vmem S512x4096 .f32) (harg8 : arg8.IsWhole) (arg9 : Memref sig .tc .vmem S512x4096 .f32) (harg9 : arg9.IsWhole) (hc0 : ¬cond0_0 i) (hc1 : cond0_1 i) (x0 : Vec F S512x4096 .bf16) (x1 : Vec F S1x4096x256 .bf16) (x2 : Vec F S1x4096x256 .bf16) (x3 : Vec F S1x256x4096 .bf16) (x4 : Vec F S1x512x1 .f32) (xs0 : Vec F S512x4096 .f32) :
    sout0_C_0 c i arg3 harg3 arg4 harg4 arg5 harg5 arg6 harg6 arg7 harg7 arg8 harg8 arg9 harg9 hc0 hc1 x0 x1 x2 x3 x4 xs0 = k0_pay2 x0 x1 x2 x3 x4 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread, View.ld_unit_zero (S := S512x4096) hz2, View.ld_unit_zero (S := S1x4096x256) hz3, View.ld_unit_zero (S := S1x256x4096) hz3, View.ld_unit_zero (S := S1x512x1) hz3]

/-- … and the output block is the scratch's new contents, copied. -/
theorem out_C (c : Dev nD) (i : grid0.Coords) (arg3 : Memref sig .tc .vmem S512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x1 .f32) (harg7 : arg7.IsWhole) (arg8 : Memref sig .tc .vmem S512x4096 .f32) (harg8 : arg8.IsWhole) (arg9 : Memref sig .tc .vmem S512x4096 .f32) (harg9 : arg9.IsWhole) (hc0 : ¬cond0_0 i) (hc1 : cond0_1 i) (x0 : Vec F S512x4096 .bf16) (x1 : Vec F S1x4096x256 .bf16) (x2 : Vec F S1x4096x256 .bf16) (x3 : Vec F S1x256x4096 .bf16) (x4 : Vec F S1x512x1 .f32) (xs0 : Vec F S512x4096 .f32) :
    out0_C_5 c i arg3 harg3 arg4 harg4 arg5 harg5 arg6 harg6 arg7 harg7 arg8 harg8 arg9 harg9 hc0 hc1 x0 x1 x2 x3 x4 xs0 = k0_pay2 x0 x1 x2 x3 x4 xs0 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2, View.readCov_unit_zero (S := S512x4096) _ hz2]
  simp only [View.readAt_eq_ld, harg3.read_unread, harg4.read_unread, harg5.read_unread, harg6.read_unread, harg7.read_unread, harg9.read_unread, View.ld_unit_zero (S := S512x4096) hz2, View.ld_unit_zero (S := S1x4096x256) hz3, View.ld_unit_zero (S := S1x256x4096) hz3, View.ld_unit_zero (S := S1x512x1) hz3]

end Cert.KernelIdeal.Pieces

end
-- ==== Proof.Spec.lean ====
/-
  The mathematics of a token-routed SwiGLU mixture of experts, stated once for both programs.

  N = 8192 tokens of width H = 4096, E = 8 experts; expert e has an up-projection W[e] : H × 2I (I = 2048; its
  first I columns are the gate half, its last I columns the linear half) and a down-projection D[e] : I × H.
  Every token is routed to ONE expert, `route tok n`, and the layer's output at token n is that expert's
  SwiGLU network applied to row n:
      out[n, h] = Σ_e μ(e, n) · Σ_k swiglu(g_e[n,k], u_e[n,k]) · D[e, k, h],   μ(e, n) = 1 if route n = e else 0.
  The two programs spell this differently: one multiplies the ROW by μ before the projection and the
  contribution by μ after it and sums k over all of I at once (`refG`); the other projects the unmasked row, cuts I
  into 8 blocks of 256, and multiplies each block's contribution by μ (`kerG`). Since μ is 0 or 1 the two agree on
  the extended reals with no finiteness assumption: where μ = 1 the masks are the identity and the blocks of 256
  re-assemble the sum over I; where μ = 0 every contribution is `_ * 0 = 0` on both sides.
-/
import Idealize.ShloMosaic.PureOps.Ideal
import Idealize.ShloMosaic.Lib.ValueIdx

noncomputable section

open scoped BigOperators

namespace Cert.Routed

open Idealize.ShloMosaic Idealize.ShloMosaic.ValueIdx

abbrev S0 : Shape := ⟨0, ![]⟩
abbrev STok : Shape := ⟨1, ![8192]⟩
abbrev SX : Shape := ⟨2, ![8192, 4096]⟩
abbrev SW : Shape := ⟨3, ![8, 4096, 4096]⟩
abbrev SD : Shape := ⟨3, ![8, 2048, 4096]⟩

/-- The routing: a token id is clamped into [0, 31999] and its expert is the floor remainder by 8 (the remainder
    with the divisor's sign: the truncated remainder, plus the divisor where the two signs differ and the
    remainder is not zero; a zero divisor is replaced by one first). An integer computation, the same in both
    programs; nothing below looks inside it. -/
def route (hb : S0.BroadcastsInDim STok (![] : Fin 0 → Fin STok.rank)) (tok : IVec STok 32) : IVec STok 32 :=
  let lo : IVec STok 32 := broadcastInDim STok ![] hb (id (constantI S0 32 0#32))
  let a : IVec STok 32 := maxsi lo tok
  let hi : IVec STok 32 := broadcastInDim STok ![] hb (id (constantI S0 32 31999#32))
  let cl : IVec STok 32 := minsi hi a
  let d0 : IVec S0 32 := id (constantI S0 32 8#32)
  let d : IVec S0 32 := select (cmpi .eq d0 (constantI S0 32 0#32)) (constantI S0 32 1#32) d0
  let r : IVec STok 32 := Host.remsi cl (broadcastInDim STok ![] hb d)
  let rne : IVec STok 1 := cmpi .ne r (broadcastInDim STok ![] hb (constantI S0 32 0#32))
  let rlt : IVec STok 1 := cmpi .slt r (broadcastInDim STok ![] hb (constantI S0 32 0#32))
  let dlt : IVec S0 1 := cmpi .slt d (constantI S0 32 0#32)
  let fix : IVec STok 1 := andi (cmpi .ne rlt (broadcastInDim STok ![] hb dlt)) rne
  select fix (addi r (broadcastInDim STok ![] hb d)) r

/-- μ(e, n): 1 when token n is routed to expert e, else 0 (the comparison's bit read as a number). -/
def sel (ids : IVec STok 32) (e : Fin 8) (n : Fin 8192) : EReal :=
  (((IntOp.cmpi .eq (ids (ix1 n)) (BitVec.ofNat 32 e.val)).toNat : ℝ) : EReal)

theorem sel_zero_or_one (ids : IVec STok 32) (e : Fin 8) (n : Fin 8192) : sel ids e n = 0 ∨ sel ids e n = 1 := by
  unfold sel
  rcases BitVec.eq_zero_or_eq_one (IntOp.cmpi .eq (ids (ix1 n)) (BitVec.ofNat 32 e.val)) with h | h
  · left; rw [h]; simp
  · right; rw [h]; simp

/-- Column k (of 2I = 4096) of expert e's up-projection of a row. -/
def proj (xr : Fin 4096 → EReal) (W : FVec Ideal SW .f32) (e : Fin 8) (k : Fin 4096) : EReal :=
  ∑ c : Fin 4096, xr c * W (ix3 e c k)

/-- SwiGLU of a gate value and a linear value: g · σ(g) · u, σ the logistic function. -/
def swiglu (g u : EReal) : EReal := g * Ideal.logistic g * u

/-- Hidden unit k (of I = 2048) of expert e on a row: gate column k, linear column I + k. -/
def hid (xr : Fin 4096 → EReal) (W : FVec Ideal SW .f32) (e : Fin 8) (k : Fin 2048) : EReal :=
  swiglu (proj xr W e ⟨k.val, by omega⟩) (proj xr W e ⟨k.val + 2048, by omega⟩)

/-- Unit k of block j of the hidden dimension cut into 8 blocks of 256. -/
abbrev blk (j : Fin 8) (k : Fin 256) : Fin 2048 := ⟨256 * j.val + k.val, by omega⟩

/-- The layer as the blocked program computes it: unmasked rows; per expert and per block of 256 hidden units the
    block's contribution, multiplied by μ. -/
def kerG (x : FVec Ideal SX .f32) (ids : IVec STok 32) (W : FVec Ideal SW .f32) (D : FVec Ideal SD .f32)
    (n : Fin 8192) (h : Fin 4096) : EReal :=
  ∑ e : Fin 8, ∑ j : Fin 8,
    (∑ k : Fin 256, hid (fun c => x (ix2 n c)) W e (blk j k) * D (ix3 e (blk j k) h)) * sel ids e n

/-- The layer as the reference computes it: per expert the row multiplied by μ, projected, and the whole
    contribution multiplied by μ again. -/
def refG (x : FVec Ideal SX .f32) (ids : IVec STok 32) (W : FVec Ideal SW .f32) (D : FVec Ideal SD .f32)
    (n : Fin 8192) (h : Fin 4096) : EReal :=
  ∑ e : Fin 8, (∑ k : Fin 2048, hid (fun c => x (ix2 n c) * sel ids e n) W e k * D (ix3 e k h)) * sel ids e n

/-- A sum over the 2048 hidden units is the sum over the 8 blocks of the sums over each block's 256 units. -/
theorem sum_blocks (f : Fin 2048 → EReal) : ∑ j : Fin 8, ∑ k : Fin 256, f (blk j k) = ∑ k : Fin 2048, f k := by
  rw [← Fintype.sum_prod_type' (fun (j : Fin 8) (k : Fin 256) => f (blk j k))]
  refine Fintype.sum_equiv (finProdFinEquiv (m := 8) (n := 256)) _ _ (fun p => ?_)
  refine congrArg f (Fin.ext ?_)
  show 256 * p.1.val + p.2.val = p.2.val + 256 * p.1.val
  omega

/-- THE LAW: the blocked, mask-after form and the reference's mask-before-and-after form are one function. -/
theorem kerG_eq_refG (x : FVec Ideal SX .f32) (ids : IVec STok 32) (W : FVec Ideal SW .f32) (D : FVec Ideal SD .f32)
    (n : Fin 8192) (h : Fin 4096) : kerG x ids W D n h = refG x ids W D n h := by
  unfold kerG refG
  refine Finset.sum_congr rfl (fun e _ => ?_)
  rcases sel_zero_or_one ids e n with hs | hs
  · rw [hs]; simp only [mul_zero, Finset.sum_const_zero]
  · rw [hs]; simp only [mul_one]
    exact sum_blocks (fun k => hid (fun c => x (ix2 n c)) W e k * D (ix3 e k h))

end Cert.Routed

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.KPayloadDot.lean ====
/-
  The kernel body's two matrix products read at one entry.

  The body multiplies a [512, 4096] block of token rows by a [4096, 256] block of weight columns, twice (gate and
  linear halves), and the [512, 256] block of activations by a [256, 4096] block of down-projection rows.  Each
  product contracts the left operand's axis 1 with the right operand's axis 0 and starts from a zero accumulator,
  so at the ideal instance its entry (p, q) is the plain sum  ∑ c, lhs[p, c] · rhs[c, q].  The two theorems at the
  end say this for the two shapes; the lemmas before them read the dimension numbers' operand indices coordinate by
  coordinate.
-/
import Idealize.ShloMosaic.Lib.ValueIdx
import proofs.«165303_j35373350650584_1_alg».proof.Proof.Gen.KernelIdeal
import proofs.«165303_j35373350650584_1_alg».proof.Proof.LibContract

noncomputable section

open scoped BigOperators

namespace Cert.KernelIdeal.Payload

open Idealize.ShloMosaic Idealize.ShloMosaic.ValueIdx Cert.KernelIdeal

/-! ## The up-projection's dimension numbers: [512, 4096] × [4096, 256] → [512, 256] -/

/-- The left operand's row is the result's row. -/
theorem up_lhs_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl

/-- The left operand's column is the contracted coordinate. -/
theorem up_lhs_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q

/-- The right operand's row is the contracted coordinate. -/
theorem up_rhs_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q

/-- The right operand's column is the result's column. -/
theorem up_rhs_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- Entry (p, q) of a [512, 4096] × [4096, 256] product into zero: ∑ c, x[p, c] · w[c, q]. -/
theorem matmul_up_apply (x : FVec Ideal S512x4096 .bf16) (w : FVec Ideal S4096x256 .bf16) (p : Fin 512) (q : Fin 256) :
    matmul (F := Ideal) dot_S512x4096_S4096x256_S512x256_1_0_0_1_n_n none x w
        (constant (F := Ideal) S512x256 .f32 0x00000000#32) (ix2 p q)
      = ∑ c : Fin 4096, x (ix2 p c) * w (ix2 c q) := by
  refine Cert.LibContract.matmul_zero_single dot_S512x4096_S4096x256_S512x256_1_0_0_1_n_n none 4096 rfl rfl x w
    (ix2 p q) (fun c => ix2 p c) (fun c => ix2 c q) (fun k => ?_) (fun k => ?_)
  · have hk := contrEquiv1_symm_val dot_S512x4096_S4096x256_S512x256_1_0_0_1_n_n 4096 rfl rfl k
    exact funext fun a => Fin.ext (by
      match a with
      | ⟨0, _⟩ => exact up_lhs_0 _ _
      | ⟨1, _⟩ => exact (up_lhs_1 _ _).trans hk)
  · have hk := contrEquiv1_symm_val dot_S512x4096_S4096x256_S512x256_1_0_0_1_n_n 4096 rfl rfl k
    exact funext fun a => Fin.ext (by
      match a with
      | ⟨0, _⟩ => exact (up_rhs_0 _ _).trans hk
      | ⟨1, _⟩ => exact up_rhs_1 _ _)

/-! ## The down-projection's dimension numbers: [512, 256] × [256, 4096] → [512, 4096] -/

/-- The left operand's row is the result's row. -/
theorem down_lhs_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide),
    dif_pos (show (0 : Fin S512x256.rank) ∈ dot_S512x256_S256x4096_S512x4096_1_0_0_1_n_n.lhsNonContracting by decide)]
  rfl

/-- The left operand's column is the contracted coordinate. -/
theorem down_lhs_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q

/-- The right operand's row is the contracted coordinate. -/
theorem down_rhs_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q

/-- The right operand's column is the result's column. -/
theorem down_rhs_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide),
    dif_pos (show (1 : Fin S256x4096.rank) ∈ dot_S512x256_S256x4096_S512x4096_1_0_0_1_n_n.rhsNonContracting by decide)]
  rfl

/-- Entry (p, q) of a [512, 256] × [256, 4096] product into zero: ∑ k, a[p, k] · d[k, q]. -/
theorem matmul_down_apply (a : FVec Ideal S512x256 .bf16) (d : FVec Ideal S256x4096 .bf16) (p : Fin 512) (q : Fin 4096) :
    matmul (F := Ideal) dot_S512x256_S256x4096_S512x4096_1_0_0_1_n_n none a d
        (constant (F := Ideal) S512x4096 .f32 0x00000000#32) (ix2 p q)
      = ∑ k : Fin 256, a (ix2 p k) * d (ix2 k q) := by
  refine Cert.LibContract.matmul_zero_single dot_S512x256_S256x4096_S512x4096_1_0_0_1_n_n none 256 rfl rfl a d
    (ix2 p q) (fun k => ix2 p k) (fun k => ix2 k q) (fun k => ?_) (fun k => ?_)
  · have hk := contrEquiv1_symm_val dot_S512x256_S256x4096_S512x4096_1_0_0_1_n_n 256 rfl rfl k
    exact funext fun ax => Fin.ext (by
      match ax with
      | ⟨0, _⟩ => exact down_lhs_0 _ _
      | ⟨1, _⟩ => exact (down_lhs_1 _ _).trans hk)
  · have hk := contrEquiv1_symm_val dot_S512x256_S256x4096_S512x4096_1_0_0_1_n_n 256 rfl rfl k
    exact funext fun ax => Fin.ext (by
      match ax with
      | ⟨0, _⟩ => exact (down_rhs_0 _ _).trans hk
      | ⟨1, _⟩ => exact down_rhs_1 _ _)

end Cert.KernelIdeal.Payload

end
-- ==== Proof.KPayload.lean ====
/-
  The kernel body's arithmetic read at one entry.

  At one grid point the body holds a [512, 4096] block of token rows x, a [1, 4096, 256] block of an expert's gate
  columns Wg and of its linear columns Wu, a [1, 256, 4096] block of the expert's down-projection rows D, the
  [1, 512, 1] column of routing weights μ for these rows, and the running [512, 4096] accumulator A.  It stores

        A + ((g · σ(g) · u) D) · μ,        g = x Wg,  u = x Wu   (σ the logistic function),

  the weight μ[r] multiplying the whole of row r.  Read at entry (r, h) this is

        A[r, h] + (∑ k < 256, swiglu(g[r, k], u[r, k]) · D[0, k, h]) · μ[0, r, 0],
        g[r, k] = ∑ c < 4096, x[r, c] · Wg[0, c, k],   u[r, k] likewise with Wu,

  which is `pay2_apply`.  The block the first grid point stores is the zero block: `pay1_apply`.

  The proof reads the stored term from the outside in: the shape casts to the same shape are the identity, sums
  and products of arrays are entrywise, the narrowing of the activations is the identity on extended reals, each
  product of matrices into a zero accumulator is a finite sum, a leading unit axis dropped by a cast puts a 0 in
  front of the index, and the column of weights broadcast along the rows repeats entry (r, 0) across row r.
-/
import Idealize.ShloMosaic.Lib.ValueLayout
import proofs.«165303_j35373350650584_1_alg».proof.Proof.Gen.KernelIdeal.Skeleton
import proofs.«165303_j35373350650584_1_alg».proof.Proof.Spec
import proofs.«165303_j35373350650584_1_alg».proof.Proof.LibColumn
import proofs.«165303_j35373350650584_1_alg».proof.Proof.KPayloadDot

noncomputable section

open scoped BigOperators

namespace Cert.KernelIdeal.Payload

open Idealize.ShloMosaic Idealize.ShloMosaic.ValueIdx Cert.KernelIdeal Cert.KernelIdeal.Gen

/-- Row r of the token block against column k of a [1,4096,256] weight block: Σ_c xb[r,c]·wb[0,c,k]. -/
def colsum (xb : Vec Ideal S512x4096 .bf16) (wb : Vec Ideal S1x4096x256 .bf16) (r : Fin 512) (k : Fin 256) : EReal :=
  ∑ c : Fin 4096, xb (ix2 r c) * wb (ix3 (0 : Fin 1) c k)

/-- The token block, cast to its own shape, times a weight block with its leading unit axis dropped, into zero:
    entry (r, k) is the row-against-column sum `colsum`. -/
theorem proj_apply (x : FVec Ideal S512x4096 .bf16) (w : FVec Ideal S1x4096x256 .bf16) (r : Fin 512) (k : Fin 256) :
    matmul (F := Ideal) dot_S512x4096_S4096x256_S512x256_1_0_0_1_n_n none
        (shapeCast S512x4096 x Facts₀.shapeCasts_S512x4096_S512x4096)
        (shapeCast S4096x256 w Facts₀.shapeCasts_S1x4096x256_S4096x256)
        (constant (F := Ideal) S512x256 .f32 0x00000000#32) (ix2 r k)
      = colsum x w r k :=
  (matmul_up_apply _ _ r k).trans (Finset.sum_congr rfl fun c _ =>
    congrArg₂ (· * ·) (congrFun (shapeCast_self x _) (ix2 r c)) (shapeCast_1ab_ab_apply w _ c k))

/-- The activations g · σ(g) · u of a block, narrowed (the identity on extended reals), read at (r, k). -/
theorem act_apply (g u : FVec Ideal S512x256 .f32) (r : Fin 512) (k : Fin 256) :
    (truncf .bf16 (mulf (mulf g (logistic g)) u) Facts₀.bitsLt_bf16_f32 : FVec Ideal S512x256 .bf16) (ix2 r k)
      = Cert.Routed.swiglu (g (ix2 r k)) (u (ix2 r k)) := rfl

/-- The activations times a down-projection block with its leading unit axis dropped, into zero: entry (r, h) is
    ∑ k, a[r, k] · D[0, k, h]. -/
theorem down_apply (a : FVec Ideal S512x256 .bf16) (d : FVec Ideal S1x256x4096 .bf16) (r : Fin 512) (h : Fin 4096) :
    matmul (F := Ideal) dot_S512x256_S256x4096_S512x4096_1_0_0_1_n_n none a
        (shapeCast S256x4096 d Facts₀.shapeCasts_S1x256x4096_S256x4096)
        (constant (F := Ideal) S512x4096 .f32 0x00000000#32) (ix2 r h)
      = ∑ k : Fin 256, a (ix2 r k) * d (ix3 (0 : Fin 1) k h) :=
  (matmul_down_apply _ _ r h).trans (Finset.sum_congr rfl fun k _ =>
    congrArg (a (ix2 r k) * ·) (shapeCast_1ab_ab_apply d _ k h))

/-- The [1, 512, 1] column of weights with its leading unit axis dropped and broadcast along the rows of a
    [512, 4096] array: entry (r, h) is the weight of row r. -/
theorem weight_apply (m : FVec Ideal S1x512x1 .f32) (r : Fin 512) (h : Fin 4096) :
    broadcastTo S512x4096 (shapeCast S512x1 m Facts₀.shapeCasts_S1x512x1_S512x1) Facts₀.broadcasts_S512x1_S512x4096 (ix2 r h)
      = m (ix3 (0 : Fin 1) r (0 : Fin 1)) :=
  (Cert.LibColumn.broadcastTo_a1_ab_apply _ _ r h).trans (shapeCast_1ab_ab_apply m _ r (0 : Fin 1))

/-- The stored block over float arrays (the same function types as the loaded blocks'). -/
theorem pay2_apply' (v5 : FVec Ideal S512x4096 .bf16) (v7 v9 : FVec Ideal S1x4096x256 .bf16)
    (v11 : FVec Ideal S1x256x4096 .bf16) (v20 : FVec Ideal S1x512x1 .f32) (v22 : FVec Ideal S512x4096 .f32)
    (r : Fin 512) (h : Fin 4096) :
    k0_pay2 (F := Ideal) v5 v7 v9 v11 v20 v22 (ix2 r h)
      = v22 (ix2 r h)
        + (∑ k : Fin 256, Cert.Routed.swiglu (colsum v5 v7 r k) (colsum v5 v9 r k) * v11 (ix3 (0 : Fin 1) k h))
          * v20 (ix3 (0 : Fin 1) r (0 : Fin 1)) := by
  unfold k0_pay2
  refine (congrFun (shapeCast_self _ _) (ix2 r h)).trans ?_
  refine (addf_apply _ _ _).trans (congrArg (v22 (ix2 r h) + ·) ?_)
  refine (mulf_apply _ _ _).trans (congrArg₂ (· * ·) ?_ (weight_apply v20 r h))
  refine (down_apply _ v11 r h).trans (Finset.sum_congr rfl fun k _ => congrArg (· * v11 (ix3 (0 : Fin 1) k h)) ?_)
  refine (act_apply _ _ r k).trans (congrArg₂ Cert.Routed.swiglu (proj_apply v5 v7 r k) (proj_apply v5 v9 r k))

/-- THE PAYLOAD AT AN ENTRY: the block a grid point stores, read at (r, h), is the accumulator's entry plus the
    block's SwiGLU contribution times the row's routing weight. -/
theorem pay2_apply (v5 : Vec Ideal S512x4096 .bf16) (v7 v9 : Vec Ideal S1x4096x256 .bf16) (v11 : Vec Ideal S1x256x4096 .bf16)
    (v20 : Vec Ideal S1x512x1 .f32) (v22 : Vec Ideal S512x4096 .f32) (r : Fin 512) (h : Fin 4096) :
    k0_pay2 (F := Ideal) v5 v7 v9 v11 v20 v22 (ix2 r h)
      = v22 (ix2 r h)
        + (∑ k : Fin 256, Cert.Routed.swiglu (colsum v5 v7 r k) (colsum v5 v9 r k) * v11 (ix3 (0 : Fin 1) k h))
          * v20 (ix3 (0 : Fin 1) r (0 : Fin 1)) :=
  pay2_apply' v5 v7 v9 v11 v20 v22 r h

/-- The block the first grid point stores is zero everywhere: a splat of the zero word, cast to its own shape. -/
theorem pay1_apply (r : Fin 512) (h : Fin 4096) : k0_pay1 (F := Ideal) (ix2 r h) = 0 := by
  unfold k0_pay1
  exact (congrFun (shapeCast_self _ _) (ix2 r h)).trans Ideal.ofBits_zero_f32

end Cert.KernelIdeal.Payload

end
-- ==== Proof.KBlocks.lean ====
/-
  A window's block at a grid point, read at a coordinate inside the block.

  The grid is 16 × 8 × 8: point t stands for token block i = t / 64, expert e = (t / 8) % 8 and hidden block
  j = t % 8. Each window's block at t is a rectangle of its array, and an element of the block sits in the array at
  block index × block size + its coordinate inside the block:
    token rows   [512, 4096]    (r, q)    ↦ (512 i + r, q)
    gate, linear [1, 4096, 256] (0, p, k) ↦ (e, p, 256 j + k)
    down         [1, 256, 4096] (0, k, q) ↦ (e, 256 j + k, q)
    μ            [1, 512, 1]    (0, r, 0) ↦ (e, 512 i + r, 0)
  The relations between the printed index maps and (i, e, j) are decided once over the grid's 1024 points.
-/
import proofs.«165303_j35373350650584_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Token block, expert and hidden block of grid point `t`. -/
abbrev tokBlk (t : Fin cfg0.N) : Nat := t.val / 64
abbrev expert (t : Fin cfg0.N) : Nat := t.val / 8 % 8
abbrev hidBlk (t : Fin cfg0.N) : Nat := t.val % 8

theorem idx0 : ∀ t : Fin cfg0.N, win0_0.index t 0 = t.val / 64 ∧ win0_0.index t 1 = 0 :=
  (by decide +kernel : ∀ t : Fin grid0.N, win0_0.index t 0 = t.val / 64 ∧ win0_0.index t 1 = 0)
theorem idx1 : ∀ t : Fin cfg0.N, win0_1.index t 0 = t.val / 8 % 8 ∧ win0_1.index t 1 = 0 ∧ win0_1.index t 2 = t.val % 8 :=
  (by decide +kernel : ∀ t : Fin grid0.N, win0_1.index t 0 = t.val / 8 % 8 ∧ win0_1.index t 1 = 0 ∧ win0_1.index t 2 = t.val % 8)
theorem idx2 : ∀ t : Fin cfg0.N, win0_2.index t 0 = t.val / 8 % 8 ∧ win0_2.index t 1 = 0 ∧ win0_2.index t 2 = t.val % 8 :=
  (by decide +kernel : ∀ t : Fin grid0.N, win0_2.index t 0 = t.val / 8 % 8 ∧ win0_2.index t 1 = 0 ∧ win0_2.index t 2 = t.val % 8)
theorem idx3 : ∀ t : Fin cfg0.N, win0_3.index t 0 = t.val / 8 % 8 ∧ win0_3.index t 1 = t.val % 8 ∧ win0_3.index t 2 = 0 :=
  (by decide +kernel : ∀ t : Fin grid0.N, win0_3.index t 0 = t.val / 8 % 8 ∧ win0_3.index t 1 = t.val % 8 ∧ win0_3.index t 2 = 0)
theorem idx4 : ∀ t : Fin cfg0.N, win0_4.index t 0 = t.val / 8 % 8 ∧ win0_4.index t 1 = t.val / 64 ∧ win0_4.index t 2 = 0 :=
  (by decide +kernel : ∀ t : Fin grid0.N, win0_4.index t 0 = t.val / 8 % 8 ∧ win0_4.index t 1 = t.val / 64 ∧ win0_4.index t 2 = 0)
theorem idx5 : ∀ t : Fin cfg0.N, win0_5.index t 0 = t.val / 64 ∧ win0_5.index t 1 = 0 :=
  (by decide +kernel : ∀ t : Fin grid0.N, win0_5.index t 0 = t.val / 64 ∧ win0_5.index t 1 = 0)

theorem tN (t : Fin cfg0.N) : t.val < 1024 := lt_of_lt_of_eq t.isLt (show cfg0.N = 1024 from N_0)

/-- The token-row block at (r, q) is the rows array at (512 i + r, q). -/
theorem rows_apply (c : Dev nD) (t : Fin cfg0.N) (r : Fin 512) (q : Fin 4096) :
    (iblk m c 0 t : Vec F S512x4096 .bf16) (ix2 r q)
      = (V m c main_call0_v0 : S8192x4096.Idx → F .bf16) (ix2 ⟨512 * (t.val / 64) + r.val, by have := tN t; omega⟩ q) := by
  unfold iblk
  rw [View.read_apply]
  show V m c main_call0_v0 _ = V m c main_call0_v0 _
  refine congrArg _ (funext fun a => Fin.ext ?_)
  match a with
  | ⟨0, _⟩ => show win0_0.index t 0 * 512 + 1 * r.val = 512 * (t.val / 64) + r.val; rw [(idx0 t).1]; omega
  | ⟨1, _⟩ => show win0_0.index t 1 * 4096 + 1 * q.val = q.val; rw [(idx0 t).2]; omega

/-- The gate block at (0, p, k) is the gate array at (e, p, 256 j + k). -/
theorem gate_apply (c : Dev nD) (t : Fin cfg0.N) (p : Fin 4096) (k : Fin 256) :
    (iblk m c 1 t : Vec F S1x4096x256 .bf16) (ix3 (0 : Fin 1) p k)
      = (V m c main_call0_v2 : S8x4096x2048.Idx → F .bf16)
          (ix3 ⟨t.val / 8 % 8, Nat.mod_lt _ (by decide)⟩ p ⟨256 * (t.val % 8) + k.val, by omega⟩) := by
  unfold iblk
  rw [View.read_apply]
  show V m c main_call0_v2 _ = V m c main_call0_v2 _
  refine congrArg _ (funext fun a => Fin.ext ?_)
  match a with
  | ⟨0, _⟩ => show win0_1.index t 0 * 1 + 1 * 0 = t.val / 8 % 8; rw [(idx1 t).1]; omega
  | ⟨1, _⟩ => show win0_1.index t 1 * 4096 + 1 * p.val = p.val; rw [(idx1 t).2.1]; omega
  | ⟨2, _⟩ => show win0_1.index t 2 * 256 + 1 * k.val = 256 * (t.val % 8) + k.val; rw [(idx1 t).2.2]; omega

/-- The linear block at (0, p, k) is the linear array at (e, p, 256 j + k). -/
theorem lin_apply (c : Dev nD) (t : Fin cfg0.N) (p : Fin 4096) (k : Fin 256) :
    (iblk m c 2 t : Vec F S1x4096x256 .bf16) (ix3 (0 : Fin 1) p k)
      = (V m c main_call0_v3 : S8x4096x2048.Idx → F .bf16)
          (ix3 ⟨t.val / 8 % 8, Nat.mod_lt _ (by decide)⟩ p ⟨256 * (t.val % 8) + k.val, by omega⟩) := by
  unfold iblk
  rw [View.read_apply]
  show V m c main_call0_v3 _ = V m c main_call0_v3 _
  refine congrArg _ (funext fun a => Fin.ext ?_)
  match a with
  | ⟨0, _⟩ => show win0_2.index t 0 * 1 + 1 * 0 = t.val / 8 % 8; rw [(idx2 t).1]; omega
  | ⟨1, _⟩ => show win0_2.index t 1 * 4096 + 1 * p.val = p.val; rw [(idx2 t).2.1]; omega
  | ⟨2, _⟩ => show win0_2.index t 2 * 256 + 1 * k.val = 256 * (t.val % 8) + k.val; rw [(idx2 t).2.2]; omega

/-- The down-projection block at (0, k, q) is the down-projection array at (e, 256 j + k, q). -/
theorem down_apply (c : Dev nD) (t : Fin cfg0.N) (k : Fin 256) (q : Fin 4096) :
    (iblk m c 3 t : Vec F S1x256x4096 .bf16) (ix3 (0 : Fin 1) k q)
      = (V m c main_call0_v4 : S8x2048x4096.Idx → F .bf16)
          (ix3 ⟨t.val / 8 % 8, Nat.mod_lt _ (by decide)⟩ ⟨256 * (t.val % 8) + k.val, by omega⟩ q) := by
  unfold iblk
  rw [View.read_apply]
  show V m c main_call0_v4 _ = V m c main_call0_v4 _
  refine congrArg _ (funext fun a => Fin.ext ?_)
  match a with
  | ⟨0, _⟩ => show win0_3.index t 0 * 1 + 1 * 0 = t.val / 8 % 8; rw [(idx3 t).1]; omega
  | ⟨1, _⟩ => show win0_3.index t 1 * 256 + 1 * k.val = 256 * (t.val % 8) + k.val; rw [(idx3 t).2.1]; omega
  | ⟨2, _⟩ => show win0_3.index t 2 * 4096 + 1 * q.val = q.val; rw [(idx3 t).2.2]; omega

/-- The block of routing weights at (0, r, 0) is the weight array at (e, 512 i + r, 0). -/
theorem mask_apply (c : Dev nD) (t : Fin cfg0.N) (r : Fin 512) :
    (iblk m c 4 t : Vec F S1x512x1 .f32) (ix3 (0 : Fin 1) r (0 : Fin 1))
      = (V m c main_call0_v13 : S8x8192x1.Idx → F .f32)
          (ix3 ⟨t.val / 8 % 8, Nat.mod_lt _ (by decide)⟩ ⟨512 * (t.val / 64) + r.val, by have := tN t; omega⟩ (0 : Fin 1)) := by
  unfold iblk
  rw [View.read_apply]
  show V m c main_call0_v13 _ = V m c main_call0_v13 _
  refine congrArg _ (funext fun a => Fin.ext ?_)
  match a with
  | ⟨0, _⟩ => show win0_4.index t 0 * 1 + 1 * 0 = t.val / 8 % 8; rw [(idx4 t).1]; omega
  | ⟨1, _⟩ => show win0_4.index t 1 * 512 + 1 * r.val = 512 * (t.val / 64) + r.val; rw [(idx4 t).2.1]; omega
  | ⟨2, _⟩ => show win0_4.index t 2 * 1 + 1 * 0 = 0; rw [(idx4 t).2.2]

end Cert.KernelIdeal.Blocks

end
-- ==== Proof.KHost.lean ====
/-
  What the region finds in its windows' arrays.

  Before the kernel is launched the host prepares its five operands from the four arguments: the token rows and the
  two weight arrays narrowed to bf16 (a change of format: the identity on extended reals), the up-projection cut
  into its gate half (columns 0 … 2047) and its linear half (columns 2048 … 4095), and the [8, 8192, 1] array of
  μ(e, n): the routing of the token ids, compared with the expert number along the leading axis, as a float.
-/
import proofs.«165303_j35373350650584_1_alg».proof.Proof.Gen.KernelIdeal.Frame
import proofs.«165303_j35373350650584_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.HostSide

open Cert.KernelIdeal Cert.KernelIdeal.Gen

variable {F : FTy → Type} [FloatOps F]
variable (m : (ℓ : Loc nD τ sig) → Buf (Elt F) ℓ)

/-- The token rows, narrowed. -/
theorem V_rows (c : Dev nD) :
    (V m c main_call0_v0 : S8192x4096.Idx → F .bf16)
      = truncf .bf16 (m ((c : Thread nD τ).loc main_arg0)) bitsLt_bf16_f32 := by
  dsimp only [V, hostOps0]; after_results_simp; rfl

/-- The gate half of the up-projection: columns 0 … 2047 of the narrowed array. -/
theorem V_gate (c : Dev nD) :
    (V m c main_call0_v2 : S8x4096x2048.Idx → F .bf16)
      = extractStridedSlice S8x4096x2048 ![0, 0, 0] (truncf .bf16 (m ((c : Thread nD τ).loc main_arg2)) bitsLt_bf16_f32)
          slices_S8x4096x4096_S8x4096x2048_0_0_0 := by
  dsimp only [V, hostOps0]; after_results_simp; rfl

/-- The linear half: columns 2048 … 4095. -/
theorem V_lin (c : Dev nD) :
    (V m c main_call0_v3 : S8x4096x2048.Idx → F .bf16)
      = extractStridedSlice S8x4096x2048 ![0, 0, 2048] (truncf .bf16 (m ((c : Thread nD τ).loc main_arg2)) bitsLt_bf16_f32)
          slices_S8x4096x4096_S8x4096x2048_0_0_2048 := by
  dsimp only [V, hostOps0]; after_results_simp; rfl

/-- The down-projection, narrowed. -/
theorem V_down (c : Dev nD) :
    (V m c main_call0_v4 : S8x2048x4096.Idx → F .bf16)
      = truncf .bf16 (m ((c : Thread nD τ).loc main_arg3)) bitsLt_bf16_f32 := by
  dsimp only [V, hostOps0]; after_results_simp; rfl

/-- The array of μ: the routing spread along axis 1 of [8, 8192, 1], compared with the expert number spread along
    axis 0, the comparison's bit as a float. -/
theorem V_mask (c : Dev nD) :
    (V m c main_call0_v13 : S8x8192x1.Idx → F .f32)
      = uitofp .f32 (cmpi .eq
          (broadcastInDim S8x8192x1 ![0, 1, 2] bcast_S1x8192x1_S8x8192x1_0_1_2
            (broadcastInDim S1x8192x1 ![1] bcast_S8192_S1x8192x1_1
              (Cert.Routed.route bcast_S_S8192 (m ((c : Thread nD τ).loc main_arg1)))))
          (broadcastInDim S8x8192x1 ![0, 1, 2] bcast_S8x1x1_S8x8192x1_0_1_2
            (broadcastInDim S8x1x1 ![0] bcast_S8_S8x1x1_0 (iotaInDim S8 32 0)))) := by
  dsimp only [V, hostOps0]; after_results_simp; dsimp only [cast_eq, id]; rfl

end Cert.KernelIdeal.HostSide

end
-- ==== Proof.KStep.lean ====
/-
  One grid point's addend, in terms of the argument arrays.

  Grid point n (of 16 × 8 × 8 = 1024) stands for token block i = n / 64, expert e = (n / 8) % 8 and hidden block
  j = n % 8.  Its body adds to the running [512, 4096] block

        (∑ k < 256, swiglu(g[r, k], u[r, k]) · Dblk[0, k, q]) · μblk[0, r, 0]

  where the blocks are read off the arrays the host prepared: token rows 512 i + r of the narrowed input, columns
  256 j + k of expert e's gate half and of its linear half (column 2048 + 256 j + k of the up-projection), rows
  256 j + k of expert e's down-projection, and μ(e, 512 i + r).  Narrowing is the identity on extended reals, a
  slice shifts the index by its offset, and the array of μ read at (e, n, 0) is the comparison of token n's routing
  with e, as a number.  So the addend is the mixture's term for expert e and hidden block j at token 512 i + r:
  `step_apply`.
-/
import proofs.«165303_j35373350650584_1_alg».proof.Proof.KBlocks
import proofs.«165303_j35373350650584_1_alg».proof.Proof.KHost
import proofs.«165303_j35373350650584_1_alg».proof.Proof.KPayload
import proofs.«165303_j35373350650584_1_alg».proof.Proof.Spec
import Idealize.ShloMosaic.Lib.IdealHost

noncomputable section

open scoped BigOperators

namespace Cert.KernelIdeal.Step

open Idealize.ShloMosaic Idealize.ShloMosaic.ValueIdx Idealize.ShloMosaic.TcCoe Cert.KernelIdeal Cert.KernelIdeal.Gen

/-- Token row (of 8192) of row r of point n's token block; expert and hidden block of point n. Total in n (the grid has n < 1024, where n / 64 % 16 = n / 64). -/
abbrev tokRow (n : Nat) (r : Fin 512) : Fin 8192 := ⟨512 * (n / 64 % 16) + r.val, by omega⟩
abbrev expertOf (n : Nat) : Fin 8 := ⟨n / 8 % 8, Nat.mod_lt _ (by decide)⟩
abbrev hidBlkOf (n : Nat) : Fin 8 := ⟨n % 8, Nat.mod_lt _ (by decide)⟩

/-- What grid point n adds to the running sum at (r, q) of its token block. -/
def addend (x : FVec Ideal S8192x4096 .f32) (ids : IVec S8192 32) (W : FVec Ideal S8x4096x4096 .f32) (D : FVec Ideal S8x2048x4096 .f32)
    (n : Nat) (r : Fin 512) (q : Fin 4096) : EReal :=
  (∑ k : Fin 256, Cert.Routed.hid (fun c => x (ix2 (tokRow n r) c)) W (expertOf n) (Cert.Routed.blk (hidBlkOf n) k)
      * D (ix3 (expertOf n) (Cert.Routed.blk (hidBlkOf n) k) q)) * Cert.Routed.sel ids (expertOf n) (tokRow n r)

/-! ## The host's arrays read at an index (over variables) -/

/-- The array of μ at (e, n, 0): the routing spread along axis 1 and the expert numbers spread along axis 0, compared,
    the bit as a number — μ(e, n). -/
theorem mask_read (ids : IVec S8192 32) (e : Fin 8) (n : Fin 8192) :
    (uitofp (F := Ideal) .f32 (cmpi .eq
        (broadcastInDim S8x8192x1 ![0, 1, 2] bcast_S1x8192x1_S8x8192x1_0_1_2
          (broadcastInDim S1x8192x1 ![1] bcast_S8192_S1x8192x1_1 ids))
        (broadcastInDim S8x8192x1 ![0, 1, 2] bcast_S8x1x1_S8x8192x1_0_1_2
          (broadcastInDim S8x1x1 ![0] bcast_S8_S8x1x1_0 (iotaInDim S8 32 0))))) (ix3 e n (0 : Fin 1))
      = Cert.Routed.sel ids e n := by
  have h1 : broadcastInDim S8x8192x1 ![0, 1, 2] bcast_S1x8192x1_S8x8192x1_0_1_2
      (broadcastInDim S1x8192x1 ![1] bcast_S8192_S1x8192x1_1 ids) (ix3 e n (0 : Fin 1)) = ids (ix1 n) :=
    (broadcastInDim_apply _ _ _ (ix3 e n (0 : Fin 1)) (ix3 (0 : Fin 1) n (0 : Fin 1)) (fun a => by
      match a with
      | ⟨0, _⟩ => rfl
      | ⟨1, _⟩ => rfl
      | ⟨2, _⟩ => rfl)).trans
    (broadcastInDim_apply _ _ _ (ix3 (0 : Fin 1) n (0 : Fin 1)) (ix1 n) (fun a => by
      match a with
      | ⟨0, _⟩ => rfl))
  have h2 : broadcastInDim S8x8192x1 ![0, 1, 2] bcast_S8x1x1_S8x8192x1_0_1_2
      (broadcastInDim S8x1x1 ![0] bcast_S8_S8x1x1_0 (iotaInDim S8 32 0)) (ix3 e n (0 : Fin 1)) = BitVec.ofNat 32 e.val :=
    (broadcastInDim_apply _ _ _ (ix3 e n (0 : Fin 1)) (ix3 e (0 : Fin 1) (0 : Fin 1)) (fun a => by
      match a with
      | ⟨0, _⟩ => rfl
      | ⟨1, _⟩ => rfl
      | ⟨2, _⟩ => rfl)).trans
    ((broadcastInDim_apply _ _ _ (ix3 e (0 : Fin 1) (0 : Fin 1)) (ix1 e) (fun a => by
      match a with
      | ⟨0, _⟩ => rfl)).trans (iotaInDim_apply 32 0 (ix1 e)))
  unfold Cert.Routed.sel
  show (((IntOp.cmpi .eq _ _).toNat : ℝ) : EReal) = _
  rw [h1, h2]

/-! ## The windows' blocks in terms of the arguments -/

section Blocks
variable (m : (ℓ : Loc nD τ sig) → Buf (Elt Ideal) ℓ) (c : Dev nD) (t : Fin cfg0.N)

/-- On the grid, n / 64 < 16: the token row of the block coordinate. -/
theorem tokRow_eq (r : Fin 512) (h : 512 * (t.val / 64) + r.val < 8192) :
    (⟨512 * (t.val / 64) + r.val, h⟩ : Fin 8192) = tokRow t.val r :=
  Fin.ext (by have := Blocks.tN t; show 512 * (t.val / 64) + r.val = 512 * (t.val / 64 % 16) + r.val; omega)

/-- The token block at (r, p) is the input at (512 i + r, p). -/
theorem rowsBlk_apply (r : Fin 512) (p : Fin 4096) :
    (iblk m c 0 t : Vec Ideal S512x4096 .bf16) (ix2 r p)
      = (m ((c : Thread nD τ).loc main_arg0) : FVec Ideal S8192x4096 .f32) (ix2 (tokRow t.val r) p) := by
  refine (Blocks.rows_apply m c t r p).trans ?_
  refine (congrFun (HostSide.V_rows m c) _).trans ?_
  exact congrArg (fun i => (m ((c : Thread nD τ).loc main_arg0) : FVec Ideal S8192x4096 .f32) (ix2 i p)) (tokRow_eq t r _)

/-- The gate block at (0, p, k) is the up-projection at (e, p, 256 j + k). -/
theorem gateBlk_apply (p : Fin 4096) (k : Fin 256) :
    (iblk m c 1 t : Vec Ideal S1x4096x256 .bf16) (ix3 (0 : Fin 1) p k)
      = (m ((c : Thread nD τ).loc main_arg2) : FVec Ideal S8x4096x4096 .f32)
          (ix3 (expertOf t.val) p ⟨(Cert.Routed.blk (hidBlkOf t.val) k).val, by omega⟩) := by
  refine (Blocks.gate_apply m c t p k).trans ?_
  refine (congrFun (HostSide.V_gate m c) _).trans ?_
  refine extractStridedSlice_apply _ _ _ _ _ (fun a => ?_)
  match a with
  | ⟨0, _⟩ => exact (Nat.zero_add _).symm
  | ⟨1, _⟩ => exact (Nat.zero_add _).symm
  | ⟨2, _⟩ => exact (Nat.zero_add _).symm

/-- The linear block at (0, p, k) is the up-projection at (e, p, 2048 + 256 j + k). -/
theorem linBlk_apply (p : Fin 4096) (k : Fin 256) :
    (iblk m c 2 t : Vec Ideal S1x4096x256 .bf16) (ix3 (0 : Fin 1) p k)
      = (m ((c : Thread nD τ).loc main_arg2) : FVec Ideal S8x4096x4096 .f32)
          (ix3 (expertOf t.val) p ⟨(Cert.Routed.blk (hidBlkOf t.val) k).val + 2048, by omega⟩) := by
  refine (Blocks.lin_apply m c t p k).trans ?_
  refine (congrFun (HostSide.V_lin m c) _).trans ?_
  refine extractStridedSlice_apply _ _ _ _ _ (fun a => ?_)
  match a with
  | ⟨0, _⟩ => exact (Nat.zero_add _).symm
  | ⟨1, _⟩ => exact (Nat.zero_add _).symm
  | ⟨2, _⟩ => exact Nat.add_comm _ _

/-- The down-projection block at (0, k, q) is the down-projection at (e, 256 j + k, q). -/
theorem downBlk_apply (k : Fin 256) (q : Fin 4096) :
    (iblk m c 3 t : Vec Ideal S1x256x4096 .bf16) (ix3 (0 : Fin 1) k q)
      = (m ((c : Thread nD τ).loc main_arg3) : FVec Ideal S8x2048x4096 .f32)
          (ix3 (expertOf t.val) (Cert.Routed.blk (hidBlkOf t.val) k) q) := by
  refine (Blocks.down_apply m c t k q).trans ?_
  exact congrFun (HostSide.V_down m c) _

/-- The block of routing weights at (0, r, 0) is μ(e, 512 i + r). -/
theorem maskBlk_apply (r : Fin 512) :
    (iblk m c 4 t : Vec Ideal S1x512x1 .f32) (ix3 (0 : Fin 1) r (0 : Fin 1))
      = Cert.Routed.sel (Cert.Routed.route bcast_S_S8192 (m ((c : Thread nD τ).loc main_arg1))) (expertOf t.val) (tokRow t.val r) := by
  refine (Blocks.mask_apply m c t r).trans ?_
  refine (congrFun (HostSide.V_mask m c) _).trans ?_
  rw [tokRow_eq t r]
  exact mask_read _ _ _

/-- Row r of the token block against column k of the gate block: column 256 j + k of expert e's up-projection of the row. -/
theorem gate_colsum (r : Fin 512) (k : Fin 256) :
    Payload.colsum (iblk m c 0 t) (iblk m c 1 t) r k
      = Cert.Routed.proj (fun p => (m ((c : Thread nD τ).loc main_arg0) : FVec Ideal S8192x4096 .f32) (ix2 (tokRow t.val r) p))
          (m ((c : Thread nD τ).loc main_arg2)) (expertOf t.val) ⟨(Cert.Routed.blk (hidBlkOf t.val) k).val, by omega⟩ := by
  unfold Payload.colsum Cert.Routed.proj
  exact Finset.sum_congr rfl fun p _ => congrArg₂ (· * ·) (rowsBlk_apply m c t r p) (gateBlk_apply m c t p k)

/-- … and against column k of the linear block: column 2048 + 256 j + k. -/
theorem lin_colsum (r : Fin 512) (k : Fin 256) :
    Payload.colsum (iblk m c 0 t) (iblk m c 2 t) r k
      = Cert.Routed.proj (fun p => (m ((c : Thread nD τ).loc main_arg0) : FVec Ideal S8192x4096 .f32) (ix2 (tokRow t.val r) p))
          (m ((c : Thread nD τ).loc main_arg2)) (expertOf t.val) ⟨(Cert.Routed.blk (hidBlkOf t.val) k).val + 2048, by omega⟩ := by
  unfold Payload.colsum Cert.Routed.proj
  exact Finset.sum_congr rfl fun p _ => congrArg₂ (· * ·) (rowsBlk_apply m c t r p) (linBlk_apply m c t p k)

end Blocks

/-- THE STEP: the block grid point t stores is the running block plus the mixture's term for t's expert and hidden
    block at the block's token rows. -/
theorem step_apply (m : (ℓ : Loc nD τ sig) → Buf (Elt Ideal) ℓ) (c : Dev nD) (t : Fin cfg0.N) (acc : Vec Ideal S512x4096 .f32)
    (r : Fin 512) (q : Fin 4096) :
    k0_pay2 (F := Ideal) (iblk m c 0 t) (iblk m c 1 t) (iblk m c 2 t) (iblk m c 3 t) (iblk m c 4 t) acc (ix2 r q)
      = acc (ix2 r q) + addend (m ((c : Thread nD τ).loc main_arg0)) (Cert.Routed.route bcast_S_S8192 (m ((c : Thread nD τ).loc main_arg1)))
          (m ((c : Thread nD τ).loc main_arg2)) (m ((c : Thread nD τ).loc main_arg3)) t.val r q := by
  refine (Payload.pay2_apply _ _ _ _ _ acc r q).trans (congrArg (acc (ix2 r q) + ·) ?_)
  unfold addend
  refine congrArg₂ (· * ·) (Finset.sum_congr rfl fun k _ => congrArg₂ (· * ·) ?_ (downBlk_apply m c t k q)) (maskBlk_apply m c t r)
  exact congrArg₂ Cert.Routed.swiglu (gate_colsum m c t r k) (lin_colsum m c t r k)

end Cert.KernelIdeal.Step

end
-- ==== Proof.KFold.lean ====
/-
  The running sum, point by point, and what a token block's last point writes back.

  For token block i the scratch buffer is reset at point 64 i and stepped at the 63 points after it; each point adds
  its addend (expert e = s / 8, hidden block j = s % 8 at offset s of the run). So after offset s the scratch holds
  0 + Σ_{s' ≤ s} addend(64 i + s'), and the last point (s = 63) copies that to the output block: at row r, column q,
      Σ_{s < 64} addend(64 i + s)(r, q) = Σ_e Σ_j (block (e, j)'s contribution) · μ(e, 512 i + r),
  which is the blocked form `kerG` of the layer at token 512 i + r.
-/
import proofs.«165303_j35373350650584_1_alg».proof.Proof.Gen.KernelIdeal.Value
import proofs.«165303_j35373350650584_1_alg».proof.Proof.KPieces
import proofs.«165303_j35373350650584_1_alg».proof.Proof.KPayload
import proofs.«165303_j35373350650584_1_alg».proof.Proof.KStep
import proofs.«165303_j35373350650584_1_alg».proof.Proof.Spec
import Idealize.ShloMosaic.Lib.Pipeline.Value

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.Step

variable (m : (ℓ : Loc nD τ sig) → Buf (Elt Ideal) ℓ)

/-- Point n's addend as an array over the token block's indices. -/
def addArr (c : Dev nD) (n : Nat) : S512x4096.Idx → EReal := fun i =>
  addend (m ((c : Thread nD τ).loc main_arg0)) (Cert.Routed.route bcast_S_S8192 (m ((c : Thread nD τ).loc main_arg1)))
    (m ((c : Thread nD τ).loc main_arg2)) (m ((c : Thread nD τ).loc main_arg3)) n
    ⟨(i 0).val, idx2_lt0 i⟩ ⟨(i 1).val, idx2_lt1 i⟩

theorem tN (t : Fin cfg0.N) : t.val < 1024 := lt_of_lt_of_eq t.isLt (show cfg0.N = 1024 from N_0)

/-- The body's value at a point, over a running sum `acc`, is `acc` plus the point's addend. -/
theorem pay_add (c : Dev nD) (n : Nat) (hb : n < cfg0.N) (acc : Vec Ideal S512x4096 .f32) (i : S512x4096.Idx) :
    k0_pay2 (F := Ideal) (iblk m c 0 ⟨n, hb⟩) (iblk m c 1 ⟨n, hb⟩) (iblk m c 2 ⟨n, hb⟩) (iblk m c 3 ⟨n, hb⟩) (iblk m c 4 ⟨n, hb⟩) acc i
      = acc i + addArr m c n i := by
  obtain ⟨r, q, rfl⟩ : ∃ (r : Fin 512) (q : Fin 4096), i = ix2 r q := ⟨i 0, i 1, eq_ix2 i⟩
  exact step_apply m c ⟨n, hb⟩ acc r q

/-- What a point leaves in the scratch over what the point before left, at the first point of a run … -/
theorem sc_first (c : Dev nD) (n : Nat) (hb : n < cfg0.N) (h0 : n % 64 = 0) (acc : Vec Ideal S512x4096 .f32) (i : S512x4096.Idx) :
    Value.scAt0_0 m c n hb acc i = 0 + addArr m c n i := by
  have h1 : ¬n % 64 = 63 := by omega
  unfold Value.scAt0_0
  rw [dif_pos h0, dif_neg h1, Pieces.scratch_A, pay_add m c n hb _ i]
  obtain ⟨r, q, rfl⟩ : ∃ (r : Fin 512) (q : Fin 4096), i = ix2 r q := ⟨i 0, i 1, eq_ix2 i⟩
  rw [Payload.pay1_apply]

/-- … and at every later point of the run. -/
theorem sc_later (c : Dev nD) (n : Nat) (hb : n < cfg0.N) (h0 : ¬n % 64 = 0) (acc : Vec Ideal S512x4096 .f32) (i : S512x4096.Idx) :
    Value.scAt0_0 m c n hb acc i = acc i + addArr m c n i := by
  unfold Value.scAt0_0
  by_cases h1 : n % 64 = 63
  · rw [dif_neg h0, dif_pos h1, Pieces.scratch_C, pay_add m c n hb _ i]
  · rw [dif_neg h0, dif_neg h1, Pieces.scratch_B, pay_add m c n hb _ i]

/-- THE RUNNING SUM: after point t the scratch holds the sum of the addends of its run's points up to t. -/
theorem scratch_eq (c : Dev nD) (t : Fin cfg0.N) (i : S512x4096.Idx) :
    (outsAt0 m c t.val t.isLt).2 i = 0 + ∑ s ∈ Finset.range (t.val % 64 + 1), addArr m c (64 * (t.val / 64) + s) i := by
  rw [Value.soutsAt0_0_eq m c t]
  have hN := tN t
  exact Pipeline.accAt_add_apply (fun n h => Value.scAt0_0 m c n h (VS0_0.read (Elt Ideal) VS0_0.junk)) (Value.scAt0_0 m c)
    (fun _ => 0) (addArr m c) (64 * (t.val / 64)) 63
    (fun h i => sc_first m c _ h (by omega) _ i)
    (fun n h acc i h1 h2 => sc_later m c n h (by omega) acc i)
    (t.val % 64) (by omega) _ i

/-- At the last point of a token block the output block is the scratch's new contents. -/
theorem out_last (c : Dev nD) (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  rw [Pieces.out_C, Pieces.scratch_C]

end Cert.KernelIdeal.Fold

end
-- ==== Proof.KSum.lean ====
/-
  One token block's run of 64 grid points, summed: the (expert, hidden block) double sum.

  Offset s of the run is expert s / 8 and hidden block s % 8, so the 64 addends, re-indexed by the bijection
  (e, j) ↦ 8 e + j, are the 8 × 8 terms of the blocked form of the layer.
-/
import proofs.«165303_j35373350650584_1_alg».proof.Proof.KStep
import proofs.«165303_j35373350650584_1_alg».proof.Proof.Spec

noncomputable section

open scoped BigOperators
open Idealize.ShloMosaic Idealize.ShloMosaic.ValueIdx

namespace Cert.KernelIdeal.RunSum

open Cert.KernelIdeal Cert.KernelIdeal.Step

/-- The 64 addends of token block q's run, at row r and column h, are the 8 × 8 (expert, hidden block) terms of the
    blocked form of the layer at token 512 q + r: offset s of the run is expert s / 8 and hidden block s % 8. -/
theorem run_sum (x : FVec Ideal S8192x4096 .f32) (ids : IVec S8192 32) (W : FVec Ideal S8x4096x4096 .f32)
    (D : FVec Ideal S8x2048x4096 .f32) (q : Nat) (hq : q < 16) (r : Fin 512) (h : Fin 4096) :
    ∑ s ∈ Finset.range 64, addend x ids W D (64 * q + s) r h
      = Cert.Routed.kerG x ids W D ⟨512 * q + r.val, by omega⟩ h := by
  unfold Cert.Routed.kerG
  rw [Finset.sum_range,
    ← Fintype.sum_prod_type' (fun (e : Fin 8) (j : Fin 8) =>
      (∑ k : Fin 256, Cert.Routed.hid (fun c => x (ix2 (⟨512 * q + r.val, by omega⟩ : Fin 8192) c)) W e (Cert.Routed.blk j k)
        * D (ix3 e (Cert.Routed.blk j k) h)) * Cert.Routed.sel ids e ⟨512 * q + r.val, by omega⟩)]
  refine (Fintype.sum_equiv (finProdFinEquiv (m := 8) (n := 8)) _ _ (fun p => ?_)).symm
  have hv : (finProdFinEquiv (m := 8) (n := 8) p).val = p.2.val + 8 * p.1.val := rfl
  have h1 := p.1.isLt
  have h2 := p.2.isLt
  have he : expertOf (64 * q + (finProdFinEquiv (m := 8) (n := 8) p).val) = p.1 := Fin.ext (by
    show (64 * q + (finProdFinEquiv (m := 8) (n := 8) p).val) / 8 % 8 = p.1.val
    rw [hv]; omega)
  have hj : hidBlkOf (64 * q + (finProdFinEquiv (m := 8) (n := 8) p).val) = p.2 := Fin.ext (by
    show (64 * q + (finProdFinEquiv (m := 8) (n := 8) p).val) % 8 = p.2.val
    rw [hv]; omega)
  have hr : tokRow (64 * q + (finProdFinEquiv (m := 8) (n := 8) p).val) r = ⟨512 * q + r.val, by omega⟩ := Fin.ext (by
    show 512 * ((64 * q + (finProdFinEquiv (m := 8) (n := 8) p).val) / 64 % 16) + r.val = 512 * q + r.val
    rw [hv]; omega)
  unfold addend
  rw [he, hj, hr]

end Cert.KernelIdeal.RunSum

end
-- ==== Proof.KFinal.lean ====
/-
  The kernel's result array.

  Output block i (rows 512 i … 512 i + 511, all 4096 columns) is written back once, by the last point of token
  block i's run, with the run's whole sum; the sixteen blocks tile the array. So after the run the array is, at
  token n and column h, the blocked form `kerG` of the layer of the four arguments.
-/
import proofs.«165303_j35373350650584_1_alg».proof.Proof.KFold
import proofs.«165303_j35373350650584_1_alg».proof.Proof.KSum

noncomputable section

open scoped BigOperators
open Idealize.ShloMosaic Idealize.ShloMosaic.TcCoe Idealize.SL.Sem Idealize.ShloMosaic.ValueIdx

namespace Cert.KernelIdeal.Final

open Cert.KernelIdeal Cert.KernelIdeal.Gen Cert.KernelIdeal.Step
open Idealize.ShloMosaic.Pipeline (Dat)

variable (m : (ℓ : Loc nD τ sig) → Buf (Elt Ideal) ℓ) (ρ : Dev nD → PrngReg)

/-- The result array: the blocked form of the layer, token by token and column by column, of the four arguments. -/
def outArr (c : Dev nD) : S8192x4096.Idx → EReal := fun i =>
  Cert.Routed.kerG (m ((c : Thread nD τ).loc main_arg0)) (Cert.Routed.route bcast_S_S8192 (m ((c : Thread nD τ).loc main_arg1)))
    (m ((c : Thread nD τ).loc main_arg2)) (m ((c : Thread nD τ).loc main_arg3)) ⟨(i 0).val, idx2_lt0 i⟩ ⟨(i 1).val, idx2_lt1 i⟩

theorem idx5 : ∀ t : Fin cfg0.N, win0_5.index t 0 = t.val / 64 ∧ win0_5.index t 1 = 0 :=
  (by decide +kernel : ∀ t : Fin grid0.N, win0_5.index t 0 = t.val / 64 ∧ win0_5.index t 1 = 0)

/-- WHAT A TOKEN BLOCK'S LAST POINT WRITES BACK is that block of the result array: rows 512 i … 512 i + 511. -/
theorem flushed_eq (c : Dev nD) (t : Fin cfg0.N) (hf : (cfg0.win 5).flush t = true) :
    (dats m 0 c).flushed 5 t = ((cfg0.win 5).blk t).view.read (Elt Ideal) (outArr m c) := by
  have h1 : t.val % 64 = 63 := (flush0_5 t).mp hf
  have hN := Fold.tN t
  rw [Value.flushed5 m c t, Fold.out_last m c t h1]
  funext j
  show (outsAt0 m c t.val t.isLt).2 j = outArr m c (((cfg0.win 5).blk t).view.emb j)
  have hj0 : (j 0).val < 512 := (j 0).isLt
  have hj1 : (j 1).val < 4096 := (j 1).isLt
  have hemb : ((cfg0.win 5).blk t).view.emb j = ix2 (⟨512 * (t.val / 64) + (j 0).val, by omega⟩ : Fin 8192) (⟨(j 1).val, hj1⟩ : Fin 4096) := by
    funext a; apply Fin.ext
    match a with
    | ⟨0, _⟩ => show win0_5.index t 0 * 512 + 1 * (j 0).val = 512 * (t.val / 64) + (j 0).val; rw [(idx5 t).1]; omega
    | ⟨1, _⟩ => show win0_5.index t 1 * 4096 + 1 * (j 1).val = (j 1).val; rw [(idx5 t).2]; omega
  rw [hemb, Fold.scratch_eq m c t j, h1, zero_add]
  obtain ⟨r, q, rfl⟩ : ∃ (r : Fin 512) (q : Fin 4096), j = ix2 r q := ⟨j 0, j 1, eq_ix2 j⟩
  exact RunSum.run_sum _ _ _ _ (t.val / 64) (by omega) r q

/-- An index of the result array lies in point t's block iff each coordinate lies in the block's range on its axis. -/
theorem mem_blk (t : Fin cfg0.N) (i : S8192x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v0).slice (win0_5.rect t)).set ↔ _
  rw [View.set_slice_whole, Rect.mem_set_unit]
  exact Iff.rfl

/-- THE RESULT ARRAY after the run: every row lies in the block of its token block's last point. -/
theorem final (c : Dev nD) : (dats m 0 c).arrAt 5 cfg0.N = outArr m c :=
  (dats m 0 c).arrAt_eq_of_cover 5 (outArr m c) (flushed_eq m c) fun i => by
    have hi0 : (i 0).val < 8192 := (i 0).isLt
    have hi1 : (i 1).val < 4096 := (i 1).isLt
    have hN : cfg0.N = 1024 := N_0
    refine ⟨⟨64 * ((i 0).val / 512) + 63, by rw [hN]; omega⟩, (flush0_5 _).mpr (by show (64 * ((i 0).val / 512) + 63) % 64 = 63; omega), ?_⟩
    rw [mem_blk]
    intro a
    have e0 := (idx5 ⟨64 * ((i 0).val / 512) + 63, by rw [hN]; omega⟩).1
    have e1 := (idx5 ⟨64 * ((i 0).val / 512) + 63, by rw [hN]; omega⟩).2
    match a with
    | ⟨0, _⟩ =>
      show win0_5.index _ 0 * 512 ≤ (i 0).val ∧ (i 0).val < win0_5.index _ 0 * 512 + 512
      rw [e0]; show (64 * ((i 0).val / 512) + 63) / 64 * 512 ≤ (i 0).val ∧ (i 0).val < (64 * ((i 0).val / 512) + 63) / 64 * 512 + 512; omega
    | ⟨1, _⟩ =>
      show win0_5.index _ 1 * 4096 ≤ (i 1).val ∧ (i 1).val < win0_5.index _ 1 * 4096 + 4096
      rw [e1]; omega

/-- The kernel's run, read: the result array is `outArr` of the arguments, which are unchanged. -/
theorem run : θ_run defs (onTc (τ := τ) (main (F := Ideal))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefTerm.lean ====
/-
  The reference's result as one term of its four arguments.

  The reference computes the routing (`Cert.Routed.route`), starts from the zero array and adds the eight experts'
  contributions one after the other. One expert's step: the [N, 1] column of μ(e, ·) as a float; the rows of x
  multiplied by it; the product with the expert's H × 2I slab; its two halves (gate and linear); the gate through
  g · (1 / (1 + exp(−g))); the product with the linear half; the product with the expert's I × H slab; that
  multiplied by the column again and added to the running sum.
-/
import proofs.«165303_j35373350650584_1_alg».proof.ReferenceIdeal
import proofs.«165303_j35373350650584_1_alg».proof.Proof.Spec

noncomputable section

namespace Cert.ReferenceIdeal.RefTerm

open Cert.ReferenceIdeal Idealize.ShloMosaic

variable {F : FTy → Type} [FloatOps F] [Facts]
open Facts₀ Facts

/-- Expert `e`'s contribution added to the running sum `acc`. -/
def expertStep (e : Nat) (hW : S8x4096x4096.Slices ![e, 0, 0] S1x4096x4096) (hD : S8x2048x4096.Slices ![e, 0, 0] S1x2048x4096)
    (x : FVec F S8192x4096 .f32) (ids : IVec S8192 32) (W : FVec F S8x4096x4096 .f32) (D : FVec F S8x2048x4096 .f32)
    (acc : FVec F S8192x4096 .f32) : FVec F S8192x4096 .f32 :=
  let mcol : FVec F S8192x1 .f32 := uitofp .f32 (broadcastInDim S8192x1 ![0] bcast_S8192_S8192x1_0
    (cmpi .eq ids (broadcastInDim S8192 ![] bcast_S_S8192 (constantI S_ 32 (BitVec.ofNat 32 e)))))
  let xe : FVec F S8192x4096 .f32 := mulf x (broadcastInDim S8192x4096 ![0, 1] bcast_S8192x1_S8192x4096_0_1 mcol)
  let We : FVec F S4096x4096 .f32 :=
    shapeCast S4096x4096 (extractStridedSlice S1x4096x4096 ![e, 0, 0] W hW) shapeCasts_S1x4096x4096_S4096x4096
  let gu : FVec F S8192x4096 .f32 := Host.dotGeneral dot_S8192x4096_S4096x4096_S8192x4096_1_0_0_1_n_n none xe We
  let g : FVec F S8192x2048 .f32 := extractStridedSlice S8192x2048 ![0, 0] gu slices_S8192x4096_S8192x2048_0_0
  let u : FVec F S8192x2048 .f32 := extractStridedSlice S8192x2048 ![0, 2048] gu slices_S8192x4096_S8192x2048_0_2048
  let one : FVec F S8192x2048 .f32 := broadcastInDim S8192x2048 ![] bcast_S_S8192x2048 (constant S_ .f32 0x3F800000#32)
  let sg : FVec F S8192x2048 .f32 := mulf g (Host.divf one (addf one (Host.exp (Host.negf g))))
  let inter : FVec F S8192x2048 .f32 := mulf sg u
  let De : FVec F S2048x4096 .f32 :=
    shapeCast S2048x4096 (extractStridedSlice S1x2048x4096 ![e, 0, 0] D hD) shapeCasts_S1x2048x4096_S2048x4096
  let y : FVec F S8192x4096 .f32 := Host.dotGeneral dot_S8192x2048_S2048x4096_S8192x4096_1_0_0_1_n_n none inter De
  addf acc (mulf y (broadcastInDim S8192x4096 ![0, 1] bcast_S8192x1_S8192x4096_0_1 mcol))

/-- The reference's result array: the eight steps from the zero array, over the routing of the token ids. -/
def refOut (x : FVec F S8192x4096 .f32) (tok : IVec S8192 32) (W : FVec F S8x4096x4096 .f32) (D : FVec F S8x2048x4096 .f32) :
    FVec F S8192x4096 .f32 :=
  let ids : IVec S8192 32 := Cert.Routed.route bcast_S_S8192 tok
  let z : FVec F S8192x4096 .f32 := broadcastInDim S8192x4096 ![] bcast_S_S8192x4096 (constant S_ .f32 0x00000000#32)
  (expertStep 7 slices_S8x4096x4096_S1x4096x4096_7_0_0 slices_S8x2048x4096_S1x2048x4096_7_0_0 x ids W D
      (expertStep 6 slices_S8x4096x4096_S1x4096x4096_6_0_0 slices_S8x2048x4096_S1x2048x4096_6_0_0 x ids W D
      (expertStep 5 slices_S8x4096x4096_S1x4096x4096_5_0_0 slices_S8x2048x4096_S1x2048x4096_5_0_0 x ids W D
      (expertStep 4 slices_S8x4096x4096_S1x4096x4096_4_0_0 slices_S8x2048x4096_S1x2048x4096_4_0_0 x ids W D
      (expertStep 3 slices_S8x4096x4096_S1x4096x4096_3_0_0 slices_S8x2048x4096_S1x2048x4096_3_0_0 x ids W D
      (expertStep 2 slices_S8x4096x4096_S1x4096x4096_2_0_0 slices_S8x2048x4096_S1x2048x4096_2_0_0 x ids W D
      (expertStep 1 slices_S8x4096x4096_S1x4096x4096_1_0_0 slices_S8x2048x4096_S1x2048x4096_1_0_0 x ids W D
      (expertStep 0 slices_S8x4096x4096_S1x4096x4096_0_0_0 slices_S8x2048x4096_S1x2048x4096_0_0_0 x ids W D
      z))))))))

end Cert.ReferenceIdeal.RefTerm

end
-- ==== Proof.RefOps.lean ====
/-
  The reference program as a list of host operations.

  The reference computes, for N = 8192 tokens of width 4096 and 8 experts, the routing of the token ids (clamp into
  [0, 31999], then the floor remainder by 8), the zero array, and then adds the eight experts' contributions one after
  the other. Its program is a straight line of 256 tensor operations, every one writing a buffer of its own: 32 for
  the routing and the zero array (the helper functions of clamp, remainder and its select written out at their call
  sites), and eight times the same 28 for an expert (the logistic gate's nine written out at its call site).

  Here the line is stated as a LIST, cut where the mathematics cuts it: the routing part, then one part per expert.
  An expert's 28 operations are stated ONCE, over the record of the 28 buffers they write, the expert's number, and
  the buffer holding the running sum; the eight blocks are that one list at eight records.
-/
import proofs.«165303_j35373350650584_1_alg».proof.Proof.Gen.ReferenceIdeal
import proofs.«165303_j35373350650584_1_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The routing and the zero array -/

/-- The first 32 operations: the bounds 0 and 31999 and the clamp of the token ids between them (6 operations: each
    bound converted and broadcast, the maximum with the lower, the minimum with the upper); the divisor 8 and the
    floor remainder by it (21 operations: the divisor replaced by 1 were it 0; the truncated remainder; whether it is
    non-zero, whether it is negative, whether the divisor is; the correction by the divisor where the signs differ
    and the remainder is non-zero); the scalar 0.0 and its broadcast to the [8192, 4096] array the sum starts from. -/
def opsRoute : List (HloOp τ sig (Elt F)) :=
  [ nullary main_c (constantI S_ 32 0#32),
    nullary main_c_0 (constantI S_ 32 31999#32),
    -- the clamp: max(lower, ids), then min(upper, that)
    TRef.unary (.of main_c) main_call0.v0 id,
    TRef.unary main_call0.v0 main_call0.v1 (broadcastInDim S8192 ![] bcast_S_S8192),
    TRef.binary main_call0.v1 (.of main_arg1) main_call0.v2 maxsi,
    TRef.unary (.of main_c_0) main_call0.v3 id,
    TRef.unary main_call0.v3 main_call0.v4 (broadcastInDim S8192 ![] bcast_S_S8192),
    TRef.binary main_call0.v4 main_call0.v2 main_call0.v5 minsi,
    nullary main_c_1 (constantI S_ 32 8#32),
    -- the floor remainder by the divisor d (d := 1 if d = 0)
    TRef.unary (.of main_c_1) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S8192 ![] bcast_S_S8192),
    TRef.binary (.of main_v0) main_call1.v3 main_call1.v4 Host.remsi,
    TRef.nullary main_call1.c_1 (constantI S_ 32 0#32),
    TRef.unary main_call1.c_1 main_call1.v5 (broadcastInDim S8192 ![] bcast_S_S8192),
    TRef.binary main_call1.v4 main_call1.v5 main_call1.v6 (cmpi .ne),
    TRef.nullary main_call1.c_2 (constantI S_ 32 0#32),
    TRef.unary main_call1.c_2 main_call1.v7 (broadcastInDim S8192 ![] bcast_S_S8192),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S8192 ![] bcast_S_S8192),
    TRef.binary main_call1.v8 main_call1.v10 main_call1.v11 (cmpi .ne),
    TRef.binary main_call1.v11 main_call1.v6 main_call1.v12 andi,
    TRef.unary main_call1.call0.v0 main_call1.v13 (broadcastInDim S8192 ![] bcast_S_S8192),
    TRef.binary main_call1.v4 main_call1.v13 main_call1.v14 addi,
    TRef.ternary main_call1.v12 main_call1.v14 main_call1.v4 main_call1.v15 select,
    -- the zero array
    nullary main_cst (constant S_ .f32 0x00000000#32),
    unary main_cst main_v2 (broadcastInDim S8192x4096 ![] bcast_S_S8192x4096) ]

/-! ## One expert -/

/-- The 28 buffers one expert's block writes, each with the type of the tensor it holds. -/
structure ExpertBufs where
  /-- the expert's number, a scalar -/
  num : TRef sig ⟨S_, .i32⟩
  /-- the number at every token -/
  numN : TRef sig ⟨S8192, .i32⟩
  /-- whether the token is routed to this expert -/
  hit : TRef sig ⟨S8192, .i1⟩
  /-- the same as an [N, 1] column -/
  hitCol : TRef sig ⟨S8192x1, .i1⟩
  /-- μ(e, ·): the column as a float, 1 or 0 -/
  mcol : TRef sig ⟨S8192x1, .f32⟩
  /-- μ spread over the row (for masking the input) -/
  maskIn : TRef sig ⟨S8192x4096, .f32⟩
  /-- the masked rows μ · x -/
  xe : TRef sig ⟨S8192x4096, .f32⟩
  /-- the expert's slab of the up-projection, [1, H, 2I] -/
  wSlab : TRef sig ⟨S1x4096x4096, .f32⟩
  /-- the same as an [H, 2I] matrix -/
  we : TRef sig ⟨S4096x4096, .f32⟩
  /-- the up-projection of the masked rows, gate half then linear half -/
  gu : TRef sig ⟨S8192x4096, .f32⟩
  /-- the gate half -/
  g : TRef sig ⟨S8192x2048, .f32⟩
  /-- the linear half -/
  u : TRef sig ⟨S8192x2048, .f32⟩
  /-- the nine buffers of g · (1 / (1 + exp(−g))); its last is the gated value -/
  silu : fn_silu.Bufs
  /-- gate times linear half -/
  inter : TRef sig ⟨S8192x2048, .f32⟩
  /-- the expert's slab of the down-projection, [1, I, H] -/
  dSlab : TRef sig ⟨S1x2048x4096, .f32⟩
  /-- the same as an [I, H] matrix -/
  de : TRef sig ⟨S2048x4096, .f32⟩
  /-- the down-projection -/
  y : TRef sig ⟨S8192x4096, .f32⟩
  /-- μ spread over the row (for masking the contribution) -/
  maskOut : TRef sig ⟨S8192x4096, .f32⟩
  /-- the masked contribution -/
  ym : TRef sig ⟨S8192x4096, .f32⟩
  /-- the running sum with this expert's contribution added -/
  sum : TRef sig ⟨S8192x4096, .f32⟩

/-- Expert e's 28 operations, over the buffers φ they write and the buffer acc of the running sum so far; they
    read the rows (argument 0), the routing, and the two weight arrays (arguments 2 and 3). -/
def expertOps (e : Nat) (hW : S8x4096x4096.Slices ![e, 0, 0] S1x4096x4096) (hD : S8x2048x4096.Slices ![e, 0, 0] S1x2048x4096)
    (acc : TRef sig ⟨S8192x4096, .f32⟩) (φ : ExpertBufs) : List (HloOp τ sig (Elt F)) :=
  [ -- μ(e, ·) as an [N, 1] column of floats
    TRef.nullary φ.num (constantI S_ 32 (BitVec.ofNat 32 e)),
    TRef.unary φ.num φ.numN (broadcastInDim S8192 ![] bcast_S_S8192),
    TRef.binary (.of main_v1) φ.numN φ.hit (cmpi .eq),
    TRef.unary φ.hit φ.hitCol (broadcastInDim S8192x1 ![0] bcast_S8192_S8192x1_0),
    TRef.unary φ.hitCol φ.mcol (uitofp .f32),
    -- the masked rows and their up-projection by the expert's slab
    TRef.unary φ.mcol φ.maskIn (broadcastInDim S8192x4096 ![0, 1] bcast_S8192x1_S8192x4096_0_1),
    TRef.binary (.of main_arg0) φ.maskIn φ.xe mulf,
    TRef.unary (.of main_arg2 : TRef sig ⟨S8x4096x4096, .f32⟩) φ.wSlab (fun w => extractStridedSlice S1x4096x4096 ![e, 0, 0] w hW),
    TRef.reshape φ.wSlab φ.we rfl shapeCasts_S1x4096x4096_S4096x4096,
    TRef.binary φ.xe φ.we φ.gu (fun l r => Host.dotGeneral dot_S8192x4096_S4096x4096_S8192x4096_1_0_0_1_n_n none l r),
    TRef.unary φ.gu φ.g (extractStridedSlice S8192x2048 ![0, 0] · slices_S8192x4096_S8192x2048_0_0),
    TRef.unary φ.gu φ.u (extractStridedSlice S8192x2048 ![0, 2048] · slices_S8192x4096_S8192x2048_0_2048),
    -- the gate through g · (1 / (1 + exp(−g)))
    TRef.unary φ.g φ.silu.v0 Host.negf,
    TRef.unary φ.silu.v0 φ.silu.v1 Host.exp,
    TRef.nullary φ.silu.cst (constant S_ .f32 0x3F800000#32),
    TRef.unary φ.silu.cst φ.silu.v2 (broadcastInDim S8192x2048 ![] bcast_S_S8192x2048),
    TRef.binary φ.silu.v2 φ.silu.v1 φ.silu.v3 addf,
    TRef.nullary φ.silu.cst_0 (constant S_ .f32 0x3F800000#32),
    TRef.unary φ.silu.cst_0 φ.silu.v4 (broadcastInDim S8192x2048 ![] bcast_S_S8192x2048),
    TRef.binary φ.silu.v4 φ.silu.v3 φ.silu.v5 Host.divf,
    TRef.binary φ.g φ.silu.v5 φ.silu.v6 mulf,
    -- times the linear half, down-projected by the expert's slab
    TRef.binary φ.silu.v6 φ.u φ.inter mulf,
    TRef.unary (.of main_arg3 : TRef sig ⟨S8x2048x4096, .f32⟩) φ.dSlab (fun w => extractStridedSlice S1x2048x4096 ![e, 0, 0] w hD),
    TRef.reshape φ.dSlab φ.de rfl shapeCasts_S1x2048x4096_S2048x4096,
    TRef.binary φ.inter φ.de φ.y (fun l r => Host.dotGeneral dot_S8192x2048_S2048x4096_S8192x4096_1_0_0_1_n_n none l r),
    -- masked again and added to the running sum
    TRef.unary φ.mcol φ.maskOut (broadcastInDim S8192x4096 ![0, 1] bcast_S8192x1_S8192x4096_0_1),
    TRef.binary φ.y φ.maskOut φ.ym mulf,
    TRef.binary acc φ.ym φ.sum addf ]

/-! ## The eight experts' buffers -/

abbrev bufs0 : ExpertBufs where
  num := .of main_c_2; numN := .of main_v3; hit := .of main_v4; hitCol := .of main_v5; mcol := .of main_v6
  maskIn := .of main_v7; xe := .of main_v8; wSlab := .of main_v9; we := .of main_v10; gu := .of main_v11
  g := .of main_v12; u := .of main_v13; silu := main_call2; inter := .of main_v15; dSlab := .of main_v16
  de := .of main_v17; y := .of main_v18; maskOut := .of main_v19; ym := .of main_v20; sum := .of main_v21

abbrev bufs1 : ExpertBufs where
  num := .of main_c_3; numN := .of main_v22; hit := .of main_v23; hitCol := .of main_v24; mcol := .of main_v25
  maskIn := .of main_v26; xe := .of main_v27; wSlab := .of main_v28; we := .of main_v29; gu := .of main_v30
  g := .of main_v31; u := .of main_v32; silu := main_call3; inter := .of main_v34; dSlab := .of main_v35
  de := .of main_v36; y := .of main_v37; maskOut := .of main_v38; ym := .of main_v39; sum := .of main_v40

abbrev bufs2 : ExpertBufs where
  num := .of main_c_4; numN := .of main_v41; hit := .of main_v42; hitCol := .of main_v43; mcol := .of main_v44
  maskIn := .of main_v45; xe := .of main_v46; wSlab := .of main_v47; we := .of main_v48; gu := .of main_v49
  g := .of main_v50; u := .of main_v51; silu := main_call4; inter := .of main_v53; dSlab := .of main_v54
  de := .of main_v55; y := .of main_v56; maskOut := .of main_v57; ym := .of main_v58; sum := .of main_v59

abbrev bufs3 : ExpertBufs where
  num := .of main_c_5; numN := .of main_v60; hit := .of main_v61; hitCol := .of main_v62; mcol := .of main_v63
  maskIn := .of main_v64; xe := .of main_v65; wSlab := .of main_v66; we := .of main_v67; gu := .of main_v68
  g := .of main_v69; u := .of main_v70; silu := main_call5; inter := .of main_v72; dSlab := .of main_v73
  de := .of main_v74; y := .of main_v75; maskOut := .of main_v76; ym := .of main_v77; sum := .of main_v78

abbrev bufs4 : ExpertBufs where
  num := .of main_c_6; numN := .of main_v79; hit := .of main_v80; hitCol := .of main_v81; mcol := .of main_v82
  maskIn := .of main_v83; xe := .of main_v84; wSlab := .of main_v85; we := .of main_v86; gu := .of main_v87
  g := .of main_v88; u := .of main_v89; silu := main_call6; inter := .of main_v91; dSlab := .of main_v92
  de := .of main_v93; y := .of main_v94; maskOut := .of main_v95; ym := .of main_v96; sum := .of main_v97

abbrev bufs5 : ExpertBufs where
  num := .of main_c_7; numN := .of main_v98; hit := .of main_v99; hitCol := .of main_v100; mcol := .of main_v101
  maskIn := .of main_v102; xe := .of main_v103; wSlab := .of main_v104; we := .of main_v105; gu := .of main_v106
  g := .of main_v107; u := .of main_v108; silu := main_call7; inter := .of main_v110; dSlab := .of main_v111
  de := .of main_v112; y := .of main_v113; maskOut := .of main_v114; ym := .of main_v115; sum := .of main_v116

abbrev bufs6 : ExpertBufs where
  num := .of main_c_8; numN := .of main_v117; hit := .of main_v118; hitCol := .of main_v119; mcol := .of main_v120
  maskIn := .of main_v121; xe := .of main_v122; wSlab := .of main_v123; we := .of main_v124; gu := .of main_v125
  g := .of main_v126; u := .of main_v127; silu := main_call8; inter := .of main_v129; dSlab := .of main_v130
  de := .of main_v131; y := .of main_v132; maskOut := .of main_v133; ym := .of main_v134; sum := .of main_v135

abbrev bufs7 : ExpertBufs where
  num := .of main_c_9; numN := .of main_v136; hit := .of main_v137; hitCol := .of main_v138; mcol := .of main_v139
  maskIn := .of main_v140; xe := .of main_v141; wSlab := .of main_v142; we := .of main_v143; gu := .of main_v144
  g := .of main_v145; u := .of main_v146; silu := main_call9; inter := .of main_v148; dSlab := .of main_v149
  de := .of main_v150; y := .of main_v151; maskOut := .of main_v152; ym := .of main_v153; sum := .of main_v154

/-- Expert k's block, k = 0 … 7: each adds to the sum the block before it left (expert 0 to the zero array). -/
abbrev ops0 : List (HloOp τ sig (Elt F)) :=
  expertOps 0 slices_S8x4096x4096_S1x4096x4096_0_0_0 slices_S8x2048x4096_S1x2048x4096_0_0_0 (.of main_v2) bufs0
abbrev ops1 : List (HloOp τ sig (Elt F)) :=
  expertOps 1 slices_S8x4096x4096_S1x4096x4096_1_0_0 slices_S8x2048x4096_S1x2048x4096_1_0_0 bufs0.sum bufs1
abbrev ops2 : List (HloOp τ sig (Elt F)) :=
  expertOps 2 slices_S8x4096x4096_S1x4096x4096_2_0_0 slices_S8x2048x4096_S1x2048x4096_2_0_0 bufs1.sum bufs2
abbrev ops3 : List (HloOp τ sig (Elt F)) :=
  expertOps 3 slices_S8x4096x4096_S1x4096x4096_3_0_0 slices_S8x2048x4096_S1x2048x4096_3_0_0 bufs2.sum bufs3
abbrev ops4 : List (HloOp τ sig (Elt F)) :=
  expertOps 4 slices_S8x4096x4096_S1x4096x4096_4_0_0 slices_S8x2048x4096_S1x2048x4096_4_0_0 bufs3.sum bufs4
abbrev ops5 : List (HloOp τ sig (Elt F)) :=
  expertOps 5 slices_S8x4096x4096_S1x4096x4096_5_0_0 slices_S8x2048x4096_S1x2048x4096_5_0_0 bufs4.sum bufs5
abbrev ops6 : List (HloOp τ sig (Elt F)) :=
  expertOps 6 slices_S8x4096x4096_S1x4096x4096_6_0_0 slices_S8x2048x4096_S1x2048x4096_6_0_0 bufs5.sum bufs6
abbrev ops7 : List (HloOp τ sig (Elt F)) :=
  expertOps 7 slices_S8x4096x4096_S1x4096x4096_7_0_0 slices_S8x2048x4096_S1x2048x4096_7_0_0 bufs6.sum bufs7

/-- The whole line: the routing part, then the eight experts in order. -/
def ops : List (HloOp τ sig (Elt F)) :=
  opsRoute ++ (ops0 ++ (ops1 ++ (ops2 ++ (ops3 ++ (ops4 ++ (ops5 ++ (ops6 ++ ops7)))))))

/-! ## What the run asks of the operations

Every operation touches TensorCore buffers only, and none leaves its result undetermined: stated for the routing
part, once for an expert's block over any buffers, and joined for the whole line. -/

theorem opsRoute_sub : (opsRoute : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub ..⟩

theorem expertOps_sub (e : Nat) (hW hD) (acc : TRef sig ⟨S8192x4096, .f32⟩) (φ : ExpertBufs) :
    (expertOps e hW hD acc φ : List (HloOp τ sig (Elt F))).Forall fun op => op.bufs ⊆ tcRefs τ sig :=
  ⟨nullary_bufs_sub .., unary_bufs_sub .., binary_bufs_sub .., unary_bufs_sub .., unary_bufs_sub ..,
    unary_bufs_sub .., binary_bufs_sub .., unary_bufs_sub .., reshape_bufs_sub .., binary_bufs_sub .., unary_bufs_sub ..,
    unary_bufs_sub ..,
    unary_bufs_sub .., unary_bufs_sub .., nullary_bufs_sub .., unary_bufs_sub .., binary_bufs_sub .., nullary_bufs_sub ..,
    unary_bufs_sub .., binary_bufs_sub .., binary_bufs_sub ..,
    binary_bufs_sub .., unary_bufs_sub .., reshape_bufs_sub .., binary_bufs_sub ..,
    unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp opsRoute_sub op h,
      List.forall_iff_forall_mem.mp (expertOps_sub ..) op h, List.forall_iff_forall_mem.mp (expertOps_sub ..) op h,
      List.forall_iff_forall_mem.mp (expertOps_sub ..) op h, List.forall_iff_forall_mem.mp (expertOps_sub ..) op h,
      List.forall_iff_forall_mem.mp (expertOps_sub ..) op h, List.forall_iff_forall_mem.mp (expertOps_sub ..) op h,
      List.forall_iff_forall_mem.mp (expertOps_sub ..) op h, List.forall_iff_forall_mem.mp (expertOps_sub ..) op h]

theorem opsRoute_fresh : ∀ op ∈ (opsRoute : List (HloOp τ sig (Elt F))), op.fresh = ∅ := by
  intro _ h; unfold opsRoute at h
  (repeat (cases h with | head => rfl | tail _ h => ?_)); exact nomatch h

theorem expertOps_fresh (e : Nat) (hW hD) (acc : TRef sig ⟨S8192x4096, .f32⟩) (φ : ExpertBufs) :
    ∀ op ∈ (expertOps e hW hD acc φ : List (HloOp τ sig (Elt F))), op.fresh = ∅ := by
  intro _ h; unfold expertOps at h
  (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h | h
  exacts [opsRoute_fresh op h, expertOps_fresh _ _ _ _ _ op h, expertOps_fresh _ _ _ _ _ op h, expertOps_fresh _ _ _ _ _ op h,
    expertOps_fresh _ _ _ _ _ op h, expertOps_fresh _ _ _ _ _ op h, expertOps_fresh _ _ _ _ _ op h,
    expertOps_fresh _ _ _ _ _ op h, expertOps_fresh _ _ _ _ _ op h]

end Cert.ReferenceIdeal.RefRun

end
-- ==== Proof.RefRun.lean ====
/-
  The reference program's run, read back as one term of its four arguments.

  The program is a straight line of 256 tensor operations, each writing a buffer of its own (RefOps.lean states it as
  a list: the routing part, then one block per expert). Such a line always terminates, and what a buffer holds at
  the end is the fold of the operations over the contents at the start. The fold is read part by part:

    * after the routing part, the routing buffer holds route(token ids) and the sum's first buffer the zero array;
    * an expert's block leaves in its sum buffer expertStep of the rows, the routing, the two weight arrays and the
      sum so far, and does not write the arguments, the routing, or any earlier sum;

  so the last block's sum buffer holds the eight steps nested in program order over the zero array, which is refOut,
  and the four arguments hold what they held.
-/
import proofs.«165303_j35373350650584_1_alg».proof.Proof.RefOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The program is the line -/

-- one chain of 256 steps compared link by link: the comparison recurses once per step
set_option maxRecDepth 100000 in
set_option maxHeartbeats 4000000 in
/-- The printed program, its three windows run in order and the helper functions' bodies taken at their call
    sites, is the line of RefOps.lean: both are the same chain of 256 steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## The fold, part by part -/

/-- The fold over two lines run one after the other: through the first, then through the second. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-! ### The routing part -/

/-- After the routing part the routing buffer holds the routing of the token ids: the clamp into [0, 31999], then
    the floor remainder by 8 — the operations composed are Cert.Routed.route's chain, step for step. -/
theorem route_ids (V : Valuation τ sig (Elt F)) :
    after opsRoute V (main_v1 : DevRef τ sig) = Cert.Routed.route bcast_S_S8192 (V (main_arg1 : DevRef τ sig)) := by
  unfold opsRoute
  after_results_simp
  dsimp only [cast_eq]
  rfl

/-- After the routing part the sum's first buffer holds the zero array. -/
theorem route_zero (V : Valuation τ sig (Elt F)) :
    after opsRoute V (main_v2 : DevRef τ sig)
      = broadcastInDim S8192x4096 ![] bcast_S_S8192x4096 (constant S_ .f32 0x00000000#32) := by
  unfold opsRoute
  after_results_simp

/-- The routing part writes none of the four arguments. -/
theorem route_arg0 (V : Valuation τ sig (Elt F)) : after opsRoute V (main_arg0 : DevRef τ sig) = V (main_arg0 : DevRef τ sig) := by
  unfold opsRoute; after_results_simp
theorem route_arg1 (V : Valuation τ sig (Elt F)) : after opsRoute V (main_arg1 : DevRef τ sig) = V (main_arg1 : DevRef τ sig) := by
  unfold opsRoute; after_results_simp
theorem route_arg2 (V : Valuation τ sig (Elt F)) : after opsRoute V (main_arg2 : DevRef τ sig) = V (main_arg2 : DevRef τ sig) := by
  unfold opsRoute; after_results_simp
theorem route_arg3 (V : Valuation τ sig (Elt F)) : after opsRoute V (main_arg3 : DevRef τ sig) = V (main_arg3 : DevRef τ sig) := by
  unfold opsRoute; after_results_simp

/-! ### One expert's block -/

/-- The 28 buffers an expert's block writes. -/
def ExpertBufs.written (φ : ExpertBufs) : List (Ref sig .tc) :=
  [φ.num.ref, φ.numN.ref, φ.hit.ref, φ.hitCol.ref, φ.mcol.ref, φ.maskIn.ref, φ.xe.ref, φ.wSlab.ref, φ.we.ref, φ.gu.ref,
    φ.g.ref, φ.u.ref, φ.silu.v0.ref, φ.silu.v1.ref, φ.silu.cst.ref, φ.silu.v2.ref, φ.silu.v3.ref, φ.silu.cst_0.ref,
    φ.silu.v4.ref, φ.silu.v5.ref, φ.silu.v6.ref, φ.inter.ref, φ.dSlab.ref, φ.de.ref, φ.y.ref, φ.maskOut.ref, φ.ym.ref,
    φ.sum.ref]

/-- Each operation of an expert's block writes one of those. -/
theorem expertOps_writes (e : Nat) (hW hD) (acc : TRef sig ⟨S8192x4096, .f32⟩) (φ : ExpertBufs) :
    (expertOps e hW hD acc φ : List (HloOp τ sig (Elt F))).Forall fun op =>
      op.writes ⊆ (φ.written.map (Proc.devRef (τ := τ) .tc)).toFinset := by
  simp only [expertOps, List.Forall]
  and_intros <;>
    (simp only [nullary_writes, unary_writes, binary_writes, reshape_writes, Finset.singleton_subset_iff, List.mem_toFinset]
     exact List.mem_map_of_mem (by simp [ExpertBufs.written]))

/-- A buffer an expert's block does not write keeps its contents through the block. -/
theorem expertOps_keep (e : Nat) (hW hD) (acc : TRef sig ⟨S8192x4096, .f32⟩) (φ : ExpertBufs) (V : Valuation τ sig (Elt F))
    (r : Ref sig .tc) (h : r ∉ φ.written) :
    after (expertOps e hW hD acc φ) V (Proc.devRef .tc r) = V (Proc.devRef .tc r) :=
  after_of_writes_sub _ V (expertOps_writes e hW hD acc φ) h

/-- What every expert's block reads besides the running sum: the rows x, the weight arrays W and D, and the routing of
    the token ids tok (computed before the first block) — with the token ids themselves, the four arguments. -/
structure Reads (x : FVec F S8192x4096 .f32) (tok : IVec S8192 32) (W : FVec F S8x4096x4096 .f32) (D : FVec F S8x2048x4096 .f32)
    (V : Valuation τ sig (Elt F)) : Prop where
  arg0 : V (main_arg0 : DevRef τ sig) = x
  arg1 : V (main_arg1 : DevRef τ sig) = tok
  arg2 : V (main_arg2 : DevRef τ sig) = W
  arg3 : V (main_arg3 : DevRef τ sig) = D
  ids : V (main_v1 : DevRef τ sig) = Cert.Routed.route bcast_S_S8192 tok

/-- An expert's block whose buffers are none of those five leaves them as they were. -/
theorem Reads.expert {x : FVec F S8192x4096 .f32} {tok : IVec S8192 32} {W : FVec F S8x4096x4096 .f32} {D : FVec F S8x2048x4096 .f32}
    {V : Valuation τ sig (Elt F)} (h : Reads x tok W D V) (e : Nat) (hW hD) (acc : TRef sig ⟨S8192x4096, .f32⟩) (φ : ExpertBufs)
    (h0 : main_arg0 ∉ φ.written := by decide) (h1 : main_arg1 ∉ φ.written := by decide) (h2 : main_arg2 ∉ φ.written := by decide)
    (h3 : main_arg3 ∉ φ.written := by decide) (hi : main_v1 ∉ φ.written := by decide) :
    Reads x tok W D (after (expertOps e hW hD acc φ) V) :=
  ⟨(expertOps_keep e hW hD acc φ V main_arg0 h0).trans h.arg0, (expertOps_keep e hW hD acc φ V main_arg1 h1).trans h.arg1,
    (expertOps_keep e hW hD acc φ V main_arg2 h2).trans h.arg2, (expertOps_keep e hW hD acc φ V main_arg3 h3).trans h.arg3,
    (expertOps_keep e hW hD acc φ V main_v1 hi).trans h.ids⟩

/-- The fold through an expert's block at its sum buffer: each of the 28 operations' results read at the buffer it
    writes and every other buffer left alone, what remains is the composition of the 28 functions over the contents
    before the block — expertStep, operation for operation. -/
local macro "expert_block" : tactic =>
  `(tactic| (simp only [expertOps]; after_results_simp; dsimp only [cast_eq]; rfl))

/-- The first expert's block leaves expert 0's step over the sum so far in its sum buffer. -/
theorem sum0 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v2 : DevRef τ sig) = s) :
    after ops0 V (main_v21 : DevRef τ sig)
      = RefTerm.expertStep 0 slices_S8x4096x4096_S1x4096x4096_0_0_0 slices_S8x2048x4096_S1x2048x4096_0_0_0 x (Cert.Routed.route bcast_S_S8192 tok) W D s := by
  obtain ⟨rfl, -, rfl, rfl, hi⟩ := h
  subst hs
  rw [← hi]
  expert_block

/-- The second expert's block leaves expert 1's step over the sum so far in its sum buffer. -/
theorem sum1 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v21 : DevRef τ sig) = s) :
    after ops1 V (main_v40 : DevRef τ sig)
      = RefTerm.expertStep 1 slices_S8x4096x4096_S1x4096x4096_1_0_0 slices_S8x2048x4096_S1x2048x4096_1_0_0 x (Cert.Routed.route bcast_S_S8192 tok) W D s := by
  obtain ⟨rfl, -, rfl, rfl, hi⟩ := h
  subst hs
  rw [← hi]
  expert_block

/-- The third expert's block leaves expert 2's step over the sum so far in its sum buffer. -/
theorem sum2 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v40 : DevRef τ sig) = s) :
    after ops2 V (main_v59 : DevRef τ sig)
      = RefTerm.expertStep 2 slices_S8x4096x4096_S1x4096x4096_2_0_0 slices_S8x2048x4096_S1x2048x4096_2_0_0 x (Cert.Routed.route bcast_S_S8192 tok) W D s := by
  obtain ⟨rfl, -, rfl, rfl, hi⟩ := h
  subst hs
  rw [← hi]
  expert_block

/-- The fourth expert's block leaves expert 3's step over the sum so far in its sum buffer. -/
theorem sum3 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v59 : DevRef τ sig) = s) :
    after ops3 V (main_v78 : DevRef τ sig)
      = RefTerm.expertStep 3 slices_S8x4096x4096_S1x4096x4096_3_0_0 slices_S8x2048x4096_S1x2048x4096_3_0_0 x (Cert.Routed.route bcast_S_S8192 tok) W D s := by
  obtain ⟨rfl, -, rfl, rfl, hi⟩ := h
  subst hs
  rw [← hi]
  expert_block

/-- The fifth expert's block leaves expert 4's step over the sum so far in its sum buffer. -/
theorem sum4 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v78 : DevRef τ sig) = s) :
    after ops4 V (main_v97 : DevRef τ sig)
      = RefTerm.expertStep 4 slices_S8x4096x4096_S1x4096x4096_4_0_0 slices_S8x2048x4096_S1x2048x4096_4_0_0 x (Cert.Routed.route bcast_S_S8192 tok) W D s := by
  obtain ⟨rfl, -, rfl, rfl, hi⟩ := h
  subst hs
  rw [← hi]
  expert_block

/-- The sixth expert's block leaves expert 5's step over the sum so far in its sum buffer. -/
theorem sum5 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v97 : DevRef τ sig) = s) :
    after ops5 V (main_v116 : DevRef τ sig)
      = RefTerm.expertStep 5 slices_S8x4096x4096_S1x4096x4096_5_0_0 slices_S8x2048x4096_S1x2048x4096_5_0_0 x (Cert.Routed.route bcast_S_S8192 tok) W D s := by
  obtain ⟨rfl, -, rfl, rfl, hi⟩ := h
  subst hs
  rw [← hi]
  expert_block

/-- The seventh expert's block leaves expert 6's step over the sum so far in its sum buffer. -/
theorem sum6 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v116 : DevRef τ sig) = s) :
    after ops6 V (main_v135 : DevRef τ sig)
      = RefTerm.expertStep 6 slices_S8x4096x4096_S1x4096x4096_6_0_0 slices_S8x2048x4096_S1x2048x4096_6_0_0 x (Cert.Routed.route bcast_S_S8192 tok) W D s := by
  obtain ⟨rfl, -, rfl, rfl, hi⟩ := h
  subst hs
  rw [← hi]
  expert_block

/-- The eighth expert's block leaves expert 7's step over the sum so far in its sum buffer. -/
theorem sum7 {x : FVec F S8192x4096 .f32} {tok : IVec S8192 32} {W : FVec F S8x4096x4096 .f32} {D : FVec F S8x2048x4096 .f32}
    {V : Valuation τ sig (Elt F)} (h : Reads x tok W D V) {s : FVec F S8192x4096 .f32} (hs : V (main_v135 : DevRef τ sig) = s) :
    after ops7 V (main_v154 : DevRef τ sig)
      = RefTerm.expertStep 7 slices_S8x4096x4096_S1x4096x4096_7_0_0 slices_S8x2048x4096_S1x2048x4096_7_0_0 x (Cert.Routed.route bcast_S_S8192 tok) W D s := by
  obtain ⟨rfl, -, rfl, rfl, hi⟩ := h
  subst hs
  rw [← hi]
  expert_block

/-! ## The whole line -/

/-- The fold through the whole line: the four arguments and the routing are as the routing part left them, and the
    last sum buffer holds the eight experts' steps nested in program order over the zero array. -/
theorem fold_ops (V : Valuation τ sig (Elt F)) :
    Reads (V (main_arg0 : DevRef τ sig)) (V (main_arg1 : DevRef τ sig)) (V (main_arg2 : DevRef τ sig)) (V (main_arg3 : DevRef τ sig))
        (after ops V)
      ∧ after ops V (main_v154 : DevRef τ sig)
          = RefTerm.refOut (V (main_arg0 : DevRef τ sig)) (V (main_arg1 : DevRef τ sig)) (V (main_arg2 : DevRef τ sig))
              (V (main_arg3 : DevRef τ sig)) := by
  -- the routing part: the five buffers every block reads, and the zero array
  have r0 : Reads (V (main_arg0 : DevRef τ sig)) (V (main_arg1 : DevRef τ sig)) (V (main_arg2 : DevRef τ sig))
      (V (main_arg3 : DevRef τ sig)) (after opsRoute V) :=
    ⟨route_arg0 V, route_arg1 V, route_arg2 V, route_arg3 V, route_ids V⟩
  have s0 := route_zero V
  simp only [ops, after_concat]
  -- then block by block, the contents between two blocks a variable
  generalize after opsRoute V = V₀ at r0 s0 ⊢
  have s1 := sum0 r0 s0
  have r1 := r0.expert 0 slices_S8x4096x4096_S1x4096x4096_0_0_0 slices_S8x2048x4096_S1x2048x4096_0_0_0 (.of main_v2) bufs0
  generalize after ops0 V₀ = V₁ at r1 s1 ⊢
  have s2 := sum1 r1 s1
  have r2 := r1.expert 1 slices_S8x4096x4096_S1x4096x4096_1_0_0 slices_S8x2048x4096_S1x2048x4096_1_0_0 bufs0.sum bufs1
  generalize after ops1 V₁ = V₂ at r2 s2 ⊢
  have s3 := sum2 r2 s2
  have r3 := r2.expert 2 slices_S8x4096x4096_S1x4096x4096_2_0_0 slices_S8x2048x4096_S1x2048x4096_2_0_0 bufs1.sum bufs2
  generalize after ops2 V₂ = V₃ at r3 s3 ⊢
  have s4 := sum3 r3 s3
  have r4 := r3.expert 3 slices_S8x4096x4096_S1x4096x4096_3_0_0 slices_S8x2048x4096_S1x2048x4096_3_0_0 bufs2.sum bufs3
  generalize after ops3 V₃ = V₄ at r4 s4 ⊢
  have s5 := sum4 r4 s4
  have r5 := r4.expert 4 slices_S8x4096x4096_S1x4096x4096_4_0_0 slices_S8x2048x4096_S1x2048x4096_4_0_0 bufs3.sum bufs4
  generalize after ops4 V₄ = V₅ at r5 s5 ⊢
  have s6 := sum5 r5 s5
  have r6 := r5.expert 5 slices_S8x4096x4096_S1x4096x4096_5_0_0 slices_S8x2048x4096_S1x2048x4096_5_0_0 bufs4.sum bufs5
  generalize after ops5 V₅ = V₆ at r6 s6 ⊢
  have s7 := sum6 r6 s6
  have r7 := r6.expert 6 slices_S8x4096x4096_S1x4096x4096_6_0_0 slices_S8x2048x4096_S1x2048x4096_6_0_0 bufs5.sum bufs6
  generalize after ops6 V₆ = V₇ at r7 s7 ⊢
  have s8 := sum7 r7 s7
  have r8 := r7.expert 7 slices_S8x4096x4096_S1x4096x4096_7_0_0 slices_S8x2048x4096_S1x2048x4096_7_0_0 bufs6.sum bufs7
  exact ⟨r8, s8⟩

/-- On every device, for any float values, from any memory with zero counters: every weakly fair execution of the
    reference program terminates with the result buffer at refOut of the four arguments' launch contents, and the
    four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154)
          = RefTerm.refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c =>
      have f := fold_ops (launchContents m c)
      ⟨(h c main_v154).trans f.2, (h c main_arg0).trans f.1.arg0, (h c main_arg1).trans f.1.arg1,
        (h c main_arg2).trans f.1.arg2, (h c main_arg3).trans f.1.arg3⟩)
    (run_seq scopedRefs_eq scopedSems_eq defs main (fun _ => ops) main_eq (fun _ => ops_sub) m ρ (fun _ => ops_fresh))

end Cert.ReferenceIdeal.RefRun
end
-- ==== Proof.LibPlainDot.lean ====
/-
  A plain matrix product read at one result index.

  For the dimension numbers of an `M × K` by `K × N` product (the left operand contracted on its columns, the right
  on its rows, no batch axis) the host's `dot_general` at the ideal instance is, at the result index `(i, j)`,
  the textbook entry `∑ c < K, l[i, c] · r[c, j]`: the contraction index has one coordinate, and the two operand
  indices at `((i, j), c)` are `(i, c)` and `(c, j)`.
-/
import Idealize.ShloMosaic.Lib.ValueIdx
import Idealize.ShloMosaic.PureOps.Ideal.Laws

noncomputable section

open scoped BigOperators

namespace Cert.LibPlainDot

open Idealize.ShloMosaic Idealize.ShloMosaic.ValueIdx

/-- The left operand's index at result index `(i, j)` and contraction coordinate `c` is `(i, c)`. -/
theorem plain_lhsIdx {M K N : ℕ} (i : Fin M) (j : Fin N) (c : Fin K) :
    (DotDims.plain M K N).lhsIdx (ix2 i j) ((contrEquiv1 (DotDims.plain M K N) K rfl rfl).symm c) = ix2 i c := by
  funext a
  match a with
  | ⟨0, _⟩ => rfl
  | ⟨1, _⟩ =>
    exact Fin.ext (((DotDims.plain M K N).lhsIdx_val_of_single (cl := 1) rfl _ _).trans
      (contrEquiv1_symm_val (DotDims.plain M K N) K rfl rfl c))

/-- The right operand's index at result index `(i, j)` and contraction coordinate `c` is `(c, j)`. -/
theorem plain_rhsIdx {M K N : ℕ} (i : Fin M) (j : Fin N) (c : Fin K) :
    (DotDims.plain M K N).rhsIdx (ix2 i j) ((contrEquiv1 (DotDims.plain M K N) K rfl rfl).symm c) = ix2 c j := by
  funext a
  match a with
  | ⟨0, _⟩ =>
    exact Fin.ext (((DotDims.plain M K N).rhsIdx_val_of_single (cr := 0) rfl _ _).trans
      (contrEquiv1_symm_val (DotDims.plain M K N) K rfl rfl c))
  | ⟨1, _⟩ => rfl

/-- The entry `(i, j)` of the host's plain product: `∑ c < K, l[i, c] · r[c, j]`. -/
theorem dotGeneral_plain_apply {M K N : ℕ} {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ c : Fin K, l (ix2 i c) * r (ix2 c j) := by
  refine (Ideal.dotGeneral_apply (DotDims.plain M K N) prec .single l r (ix2 i j)).trans ?_
  rw [← Equiv.sum_comp (contrEquiv1 (DotDims.plain M K N) K rfl rfl).symm]
  exact Finset.sum_congr rfl fun c _ => by rw [plain_lhsIdx, plain_rhsIdx]

end Cert.LibPlainDot

end
-- ==== Proof.RefReadOps.lean ====
/-
  The reference's operations read at an index: each stage of one expert's step, as a small statement about one entry.

  One expert's step builds, from the token ids, the [N, 1] column of μ(e, ·) as a float and its copy along the rows of
  an [N, H] array; cuts the expert's slab out of a stacked weight array; multiplies two matrices; cuts the product
  into its gate half and its linear half; and passes the gate half through g · (1 / (1 + exp(−g))). Each lemma below
  reads one of these at one index and says which entry of the operand (or which textbook expression) it is.
-/
import proofs.«165303_j35373350650584_1_alg».proof.Proof.RefTerm
import proofs.«165303_j35373350650584_1_alg».proof.Proof.LibPlainDot
import Idealize.ShloMosaic.Lib.ValueLayout

noncomputable section

open scoped BigOperators

namespace Cert.ReferenceIdeal.RefRead

open Cert.ReferenceIdeal Idealize.ShloMosaic Idealize.ShloMosaic.ValueIdx

variable [Facts]
open Facts₀ Facts

/-! ## The mask column -/

/-- Entry (n, ·) of the [N, 1] float column built from "ids = e" is μ(e, n): the comparison's bit read as a number. -/
theorem maskColumn_apply (ids : IVec S8192 32) (e : Fin 8) (n : Fin 8192) (u : Fin 1) :
    (uitofp .f32 (broadcastInDim S8192x1 ![0] bcast_S8192_S8192x1_0
        (cmpi .eq ids (broadcastInDim S8192 ![] bcast_S_S8192 (constantI S_ 32 (BitVec.ofNat 32 e.val))))) : FVec Ideal S8192x1 .f32) (ix2 n u)
      = Cert.Routed.sel ids e n := by
  show ((((broadcastInDim S8192x1 ![0] bcast_S8192_S8192x1_0
      (cmpi .eq ids (broadcastInDim S8192 ![] bcast_S_S8192 (constantI S_ 32 (BitVec.ofNat 32 e.val))))) (ix2 n u)).toNat : ℝ) : EReal) = _
  rw [broadcastInDim_apply _ bcast_S8192_S8192x1_0 _ (ix2 n u) (ix1 n) (fun a => by
    match a with
    | ⟨0, _⟩ =>
      show n.val = if (8192 : ℕ) = 1 then 0 else n.val
      rw [if_neg (by decide)])]
  rfl

/-- The [N, 1] column copied along the rows of an [N, H] array reads, at (n, c), the column's entry in row n. -/
theorem columnBroadcast_apply {α : Type} (v : S8192x1.Idx → α) (n : Fin 8192) (c : Fin 4096) :
    broadcastInDim S8192x4096 ![0, 1] bcast_S8192x1_S8192x4096_0_1 v (ix2 n c) = v (ix2 n (0 : Fin 1)) :=
  broadcastInDim_apply _ bcast_S8192x1_S8192x4096_0_1 v (ix2 n c) (ix2 n (0 : Fin 1)) (fun a => by
    match a with
    | ⟨0, _⟩ =>
      show n.val = if (8192 : ℕ) = 1 then 0 else n.val
      rw [if_neg (by decide)]
    | ⟨1, _⟩ => rfl)

/-! ## One expert's slab of a stacked array -/

/-- Slab e of an [E, a, b] stack, as an [a, b] matrix, reads at (i, j) the stack at (e, i, j). -/
theorem slab_apply {α : Type} {E a b : ℕ} (e : Fin E) (X : (⟨3, ![E, a, b]⟩ : Shape).Idx → α)
    (hs : (⟨3, ![E, a, b]⟩ : Shape).Slices ![e.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![e.val, 0, 0] X hs) hc (ix2 i j) = X (ix3 e i j) := by
  refine (shapeCast_1ab_ab_apply _ hc i j).trans ?_
  exact extractStridedSlice_apply _ X hs (ix3 (0 : Fin 1) i j) (ix3 e i j) (fun ax => by
    match ax with
    | ⟨0, _⟩ => rfl
    | ⟨1, _⟩ => exact (Nat.zero_add _).symm
    | ⟨2, _⟩ => exact (Nat.zero_add _).symm)

/-! ## The two halves of the up-projection -/

/-- The gate half: columns 0 … I − 1. -/
theorem gateHalf_apply {α : Type} (hs : S8192x4096.Slices ![0, 0] S8192x2048) (gu : S8192x4096.Idx → α)
    (n : Fin 8192) (k : Fin 2048) :
    extractStridedSlice S8192x2048 ![0, 0] gu hs (ix2 n k) = gu (ix2 n (⟨k.val, by omega⟩ : Fin 4096)) :=
  slice2_axis1_apply 0 gu hs n k ⟨k.val, by omega⟩ (Nat.zero_add _).symm

/-- The linear half: columns I … 2I − 1. -/
theorem linearHalf_apply {α : Type} (hs : S8192x4096.Slices ![0, 2048] S8192x2048) (gu : S8192x4096.Idx → α)
    (n : Fin 8192) (k : Fin 2048) :
    extractStridedSlice S8192x2048 ![0, 2048] gu hs (ix2 n k) = gu (ix2 n (⟨k.val + 2048, by omega⟩ : Fin 4096)) :=
  slice2_axis1_apply 2048 gu hs n k ⟨k.val + 2048, by omega⟩ (Nat.add_comm _ _)

/-! ## The two matrix products -/

/-- Entry (n, k) of the [N, H] × [H, 2I] product. -/
theorem upDot_apply (l : FVec Ideal S8192x4096 .f32) (r : FVec Ideal S4096x4096 .f32) (n : Fin 8192) (k : Fin 4096) :
    Host.dotGeneral dot_S8192x4096_S4096x4096_S8192x4096_1_0_0_1_n_n none l r (ix2 n k)
      = ∑ c : Fin 4096, l (ix2 n c) * r (ix2 c k) :=
  Cert.LibPlainDot.dotGeneral_plain_apply none l r n k

/-- Entry (n, h) of the [N, I] × [I, H] product. -/
theorem downDot_apply (l : FVec Ideal S8192x2048 .f32) (r : FVec Ideal S2048x4096 .f32) (n : Fin 8192) (h : Fin 4096) :
    Host.dotGeneral dot_S8192x2048_S2048x4096_S8192x4096_1_0_0_1_n_n none l r (ix2 n h)
      = ∑ k : Fin 2048, l (ix2 n k) * r (ix2 k h) :=
  Cert.LibPlainDot.dotGeneral_plain_apply none l r n h

/-! ## The activation -/

/-- The f32 word 0x3F800000 is the number 1. -/
theorem one_f32 : Ideal.ofBits .f32 0x3F800000#32 = 1 := by
  simp [Ideal.ofBits, Ideal.ieee, -EReal.coe_mul]; norm_num

/-- 1 / (1 + exp(−g)) at an index is σ(g), σ the logistic function (the two 1s are splats of the f32 word of 1). -/
theorem logistic_apply (g : FVec Ideal S8192x2048 .f32) (i : S8192x2048.Idx) :
    Host.divf (broadcastInDim S8192x2048 ![] bcast_S_S8192x2048 (constant (F := Ideal) S_ .f32 0x3F800000#32))
        (addf (broadcastInDim S8192x2048 ![] bcast_S_S8192x2048 (constant (F := Ideal) S_ .f32 0x3F800000#32))
          (Host.exp (Host.negf g))) i
      = Ideal.logistic (g i) := by
  show Ideal.div (Ideal.ofBits .f32 0x3F800000#32) (Ideal.ofBits .f32 0x3F800000#32 + Ideal.exp (-(g i))) = _
  rw [one_f32]
  rfl

end Cert.ReferenceIdeal.RefRead

end
-- ==== Proof.RefReadStep.lean ====
/-
  One expert's step of the reference, read at one entry.

  At (n, h) the step adds to the running sum the expert's contribution
      (Σ_k hid_e(μ(e, n) · x[n, ·])[k] · D[e, k, h]) · μ(e, n):
  the row is multiplied by μ before the up-projection, the hidden units are the SwiGLU of the gate and linear
  columns, and the down-projection is multiplied by μ again.
-/
import proofs.«165303_j35373350650584_1_alg».proof.Proof.RefReadOps

noncomputable section

open scoped BigOperators

namespace Cert.ReferenceIdeal.RefRead

open Cert.ReferenceIdeal Idealize.ShloMosaic Idealize.ShloMosaic.ValueIdx

variable [Facts]
open Facts₀ Facts

/-- Expert e's step at (n, h): the running sum there, plus the masked row's SwiGLU network output, masked again. -/
theorem expertStep_apply (e : Fin 8) (hW : S8x4096x4096.Slices ![e.val, 0, 0] S1x4096x4096)
    (hD : S8x2048x4096.Slices ![e.val, 0, 0] S1x2048x4096)
    (x : FVec Ideal S8192x4096 .f32) (ids : IVec S8192 32) (W : FVec Ideal S8x4096x4096 .f32)
    (D : FVec Ideal S8x2048x4096 .f32) (acc : FVec Ideal S8192x4096 .f32) (n : Fin 8192) (h : Fin 4096) :
    RefTerm.expertStep e.val hW hD x ids W D acc (ix2 n h)
      = acc (ix2 n h)
        + (∑ k : Fin 2048, Cert.Routed.hid (fun c => x (ix2 n c) * Cert.Routed.sel ids e n) W e k * D (ix3 e k h))
          * Cert.Routed.sel ids e n := by
  -- the mask array, at any column c of row n, is μ(e, n)
  have hmask : ∀ c : Fin 4096,
      broadcastInDim S8192x4096 ![0, 1] bcast_S8192x1_S8192x4096_0_1
          (uitofp .f32 (broadcastInDim S8192x1 ![0] bcast_S8192_S8192x1_0
            (cmpi .eq ids (broadcastInDim S8192 ![] bcast_S_S8192 (constantI S_ 32 (BitVec.ofNat 32 e.val)))))
            : FVec Ideal S8192x1 .f32) (ix2 n c)
        = Cert.Routed.sel ids e n :=
    fun c => (columnBroadcast_apply _ n c).trans (maskColumn_apply ids e n 0)
  -- 1 / (1 + exp(−g)) at an entry is σ(g)
  have hlog : ∀ (g : FVec Ideal S8192x2048 .f32) (i : S8192x2048.Idx),
      Host.divf (broadcastInDim S8192x2048 ![] bcast_S_S8192x2048 (constant (F := Ideal) S_ .f32 0x3F800000#32))
          (addf (broadcastInDim S8192x2048 ![] bcast_S_S8192x2048 (constant (F := Ideal) S_ .f32 0x3F800000#32))
            (Host.exp (Host.negf g))) i
        = Ideal.logistic (g i) := logistic_apply
  unfold RefTerm.expertStep
  simp only [addf_apply, mulf_apply, hmask, downDot_apply, slab_apply, hlog, gateHalf_apply, linearHalf_apply, upDot_apply]
  rfl

end Cert.ReferenceIdeal.RefRead

end
-- ==== Proof.RefRead.lean ====
/-
  The reference's result, read at one entry: the layer in its mask-before-and-after form.

  The result array is the zero array with the eight experts' steps applied in the order 0, 1, …, 7. At (n, h) each
  step adds its expert's contribution, so the entry is 0 + c₀ + c₁ + … + c₇ with
      c_e = (Σ_k hid_e(μ(e, n) · x[n, ·])[k] · D[e, k, h]) · μ(e, n),
  which is the sum over the eight experts written out in order.
-/
import proofs.«165303_j35373350650584_1_alg».proof.Proof.RefReadStep

noncomputable section

open scoped BigOperators

namespace Cert.ReferenceIdeal.RefRead

open Cert.ReferenceIdeal Idealize.ShloMosaic Idealize.ShloMosaic.ValueIdx

variable [Facts]
open Facts₀ Facts

/-- Expert e's contribution to the entry (n, h): the masked row through the expert's SwiGLU network, masked again. -/
def contrib (x : FVec Ideal S8192x4096 .f32) (ids : IVec S8192 32) (W : FVec Ideal S8x4096x4096 .f32)
    (D : FVec Ideal S8x2048x4096 .f32) (n : Fin 8192) (h : Fin 4096) (e : Fin 8) : EReal :=
  (∑ k : Fin 2048, Cert.Routed.hid (fun c => x (ix2 n c) * Cert.Routed.sel ids e n) W e k * D (ix3 e k h))
    * Cert.Routed.sel ids e n

/-- The eight steps from any starting array z: at (n, h), z's entry plus the eight contributions in order. -/
theorem steps_apply (x : FVec Ideal S8192x4096 .f32) (ids : IVec S8192 32) (W : FVec Ideal S8x4096x4096 .f32)
    (D : FVec Ideal S8x2048x4096 .f32) (z : FVec Ideal S8192x4096 .f32) (n : Fin 8192) (h : Fin 4096) :
    (RefTerm.expertStep 7 slices_S8x4096x4096_S1x4096x4096_7_0_0 slices_S8x2048x4096_S1x2048x4096_7_0_0 x ids W D
      (RefTerm.expertStep 6 slices_S8x4096x4096_S1x4096x4096_6_0_0 slices_S8x2048x4096_S1x2048x4096_6_0_0 x ids W D
      (RefTerm.expertStep 5 slices_S8x4096x4096_S1x4096x4096_5_0_0 slices_S8x2048x4096_S1x2048x4096_5_0_0 x ids W D
      (RefTerm.expertStep 4 slices_S8x4096x4096_S1x4096x4096_4_0_0 slices_S8x2048x4096_S1x2048x4096_4_0_0 x ids W D
      (RefTerm.expertStep 3 slices_S8x4096x4096_S1x4096x4096_3_0_0 slices_S8x2048x4096_S1x2048x4096_3_0_0 x ids W D
      (RefTerm.expertStep 2 slices_S8x4096x4096_S1x4096x4096_2_0_0 slices_S8x2048x4096_S1x2048x4096_2_0_0 x ids W D
      (RefTerm.expertStep 1 slices_S8x4096x4096_S1x4096x4096_1_0_0 slices_S8x2048x4096_S1x2048x4096_1_0_0 x ids W D
      (RefTerm.expertStep 0 slices_S8x4096x4096_S1x4096x4096_0_0_0 slices_S8x2048x4096_S1x2048x4096_0_0_0 x ids W D
      z)))))))) (ix2 n h)
      = z (ix2 n h) + contrib x ids W D n h 0 + contrib x ids W D n h 1 + contrib x ids W D n h 2
          + contrib x ids W D n h 3 + contrib x ids W D n h 4 + contrib x ids W D n h 5 + contrib x ids W D n h 6
          + contrib x ids W D n h 7 := by
  have s0 : ∀ acc : FVec Ideal S8192x4096 .f32,
      RefTerm.expertStep 0 slices_S8x4096x4096_S1x4096x4096_0_0_0 slices_S8x2048x4096_S1x2048x4096_0_0_0 x ids W D acc (ix2 n h)
        = acc (ix2 n h) + contrib x ids W D n h 0 := fun acc => expertStep_apply 0 _ _ x ids W D acc n h
  have s1 : ∀ acc : FVec Ideal S8192x4096 .f32,
      RefTerm.expertStep 1 slices_S8x4096x4096_S1x4096x4096_1_0_0 slices_S8x2048x4096_S1x2048x4096_1_0_0 x ids W D acc (ix2 n h)
        = acc (ix2 n h) + contrib x ids W D n h 1 := fun acc => expertStep_apply 1 _ _ x ids W D acc n h
  have s2 : ∀ acc : FVec Ideal S8192x4096 .f32,
      RefTerm.expertStep 2 slices_S8x4096x4096_S1x4096x4096_2_0_0 slices_S8x2048x4096_S1x2048x4096_2_0_0 x ids W D acc (ix2 n h)
        = acc (ix2 n h) + contrib x ids W D n h 2 := fun acc => expertStep_apply 2 _ _ x ids W D acc n h
  have s3 : ∀ acc : FVec Ideal S8192x4096 .f32,
      RefTerm.expertStep 3 slices_S8x4096x4096_S1x4096x4096_3_0_0 slices_S8x2048x4096_S1x2048x4096_3_0_0 x ids W D acc (ix2 n h)
        = acc (ix2 n h) + contrib x ids W D n h 3 := fun acc => expertStep_apply 3 _ _ x ids W D acc n h
  have s4 : ∀ acc : FVec Ideal S8192x4096 .f32,
      RefTerm.expertStep 4 slices_S8x4096x4096_S1x4096x4096_4_0_0 slices_S8x2048x4096_S1x2048x4096_4_0_0 x ids W D acc (ix2 n h)
        = acc (ix2 n h) + contrib x ids W D n h 4 := fun acc => expertStep_apply 4 _ _ x ids W D acc n h
  have s5 : ∀ acc : FVec Ideal S8192x4096 .f32,
      RefTerm.expertStep 5 slices_S8x4096x4096_S1x4096x4096_5_0_0 slices_S8x2048x4096_S1x2048x4096_5_0_0 x ids W D acc (ix2 n h)
        = acc (ix2 n h) + contrib x ids W D n h 5 := fun acc => expertStep_apply 5 _ _ x ids W D acc n h
  have s6 : ∀ acc : FVec Ideal S8192x4096 .f32,
      RefTerm.expertStep 6 slices_S8x4096x4096_S1x4096x4096_6_0_0 slices_S8x2048x4096_S1x2048x4096_6_0_0 x ids W D acc (ix2 n h)
        = acc (ix2 n h) + contrib x ids W D n h 6 := fun acc => expertStep_apply 6 _ _ x ids W D acc n h
  have s7 : ∀ acc : FVec Ideal S8192x4096 .f32,
      RefTerm.expertStep 7 slices_S8x4096x4096_S1x4096x4096_7_0_0 slices_S8x2048x4096_S1x2048x4096_7_0_0 x ids W D acc (ix2 n h)
        = acc (ix2 n h) + contrib x ids W D n h 7 := fun acc => expertStep_apply 7 _ _ x ids W D acc n h
  rw [s7, s6, s5, s4, s3, s2, s1, s0]

/-- THE REFERENCE IS refG: entry (n, h) of the reference's result array is the layer's mask-before-and-after form at
    the routing of the token ids. -/
theorem refOut_apply (x : FVec Ideal S8192x4096 .f32) (tok : IVec S8192 32) (W : FVec Ideal S8x4096x4096 .f32)
    (D : FVec Ideal S8x2048x4096 .f32) (n : Fin 8192) (h : Fin 4096) :
    RefTerm.refOut (F := Ideal) x tok W D (ix2 n h)
      = Cert.Routed.refG x (Cert.Routed.route bcast_S_S8192 tok) W D n h := by
  unfold RefTerm.refOut
  refine (steps_apply x (Cert.Routed.route bcast_S_S8192 tok) W D _ n h).trans ?_
  have hz : (broadcastInDim S8192x4096 ![] bcast_S_S8192x4096 (constant (F := Ideal) S_ .f32 0x00000000#32)) (ix2 n h) = 0 :=
    Ideal.ofBits_zero_f32
  rw [hz, zero_add]
  unfold Cert.Routed.refG
  rw [Fin.sum_univ_eight]
  rfl

end Cert.ReferenceIdeal.RefRead

end
-- ==== Proof.lean ====
/-
  A token-routed mixture of eight SwiGLU experts: the blocked Pallas kernel against its jnp reference.

  Both programs compute, for token n and output column h,
      out[n, h] = Σ_e μ(e, n) · Σ_k swiglu(g_e[n, k], u_e[n, k]) · D[e, k, h],
  μ(e, n) = 1 when token n is routed to expert e and 0 otherwise. The reference masks each row by μ before the
  up-projection and each expert's contribution by μ after the down-projection, one expert after the other; the kernel
  projects the unmasked rows, walks a 16 × 8 × 8 grid (token block, expert, block of 256 hidden units) accumulating
  in a scratch buffer, and masks each block's contribution. Over the extended reals the two are one function
  (`Cert.Routed.kerG_eq_refG`): μ is 0 or 1, and `_ * 0 = 0`, `_ * 1 = _` need no finiteness; sums may be regrouped
  freely. The logistic function of the kernel is the reference's 1 / (1 + exp(−g)) by definition at this instance.

  The kernel's result array is read off its frame run (`Cert.KernelIdeal.Final.run`), the reference's off its run
  (`Cert.ReferenceIdeal.RefRun.run`) and read at an index (`Cert.ReferenceIdeal.RefRead.refOut_apply`).
-/
import proofs.«165303_j35373350650584_1_alg».proof.Defs
import proofs.«165303_j35373350650584_1_alg».proof.Proof.Gen.Kernel
import proofs.«165303_j35373350650584_1_alg».proof.Proof.Gen.Kernel.Frame
import proofs.«165303_j35373350650584_1_alg».proof.Proof.Gen.KernelIdeal
import proofs.«165303_j35373350650584_1_alg».proof.Proof.Gen.KernelIdeal.Frame
import proofs.«165303_j35373350650584_1_alg».proof.Proof.Gen.ReferenceIdeal
import proofs.«165303_j35373350650584_1_alg».proof.Proof.Gen.Pre_finite_inputs
import proofs.«165303_j35373350650584_1_alg».proof.Proof.KFinal
import proofs.«165303_j35373350650584_1_alg».proof.Proof.RefRun
import proofs.«165303_j35373350650584_1_alg».proof.Proof.RefRead
import proofs.«165303_j35373350650584_1_alg».proof.Proof.Spec
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- At the ideal instance the kernel's result array is the blocked form of the layer and the reference's the
    masked-before-and-after form, of arguments that agree: one function. -/
theorem algebraic : Cert.algebraic_KernelIdeal_ReferenceIdeal := by
  intro m ρ m' ρ' _ hagree
  refine ⟨fun c => Cert.KernelIdeal.Final.outArr m c, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  funext i
  obtain ⟨n, h, rfl⟩ : ∃ (n : Fin 8192) (h : Fin 4096), i = ix2 n h := ⟨i 0, i 1, eq_ix2 i⟩
  rw [Cert.ReferenceIdeal.RefRead.refOut_apply, ← Cert.Routed.kerG_eq_refG]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
